-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x6144 : Shape := ⟨2, ![8192, 6144]⟩
abbrev S128 : Shape := ⟨1, ![128]⟩
abbrev S1x1x1x128 : Shape := ⟨4, ![1, 1, 1, 128]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S128 : S_.BroadcastsInDim S128 (![] : Fin 0 → Fin S128.rank)
  reducesTo_S128_S_d0 : S128.ReducesTo [0] S_
  bcast_S_S1x1x1x128 : S_.BroadcastsInDim S1x1x1x128 (![] : Fin 0 → Fin S1x1x1x128.rank)
  reducesTo_S1x1x1x128_S_d0_1_2_3 : S1x1x1x128.ReducesTo [0, 1, 2, 3] S_

variable [Facts]

def fn_part1 {F : FTy → Type} [FloatOps F] (main_arg4 : FVec F S1x1x1x128 .f32) (main_v13 : IVec S_ 1) (main_v16 : IVec S1x1x1x128 1) : IVec S_ 1 :=
  let main_c_5 : IVec S_ 1 := constantI S_ 1 1#1
  let main_v17 : IVec S_ 1 := (fun x v => Host.reduce IntOp.andi x v reducesTo_S1x1x1x128_S_d0_1_2_3 h_S_) main_v16 main_c_5
  let main_v18 : IVec S_ 1 := andi main_v13 main_v17
  let main_v19 : FVec F S1x1x1x128 .f32 := Host.absf main_arg4
  let main_cst_6 : FVec F S_ .f32 := constant S_ .f32 0x7F800000#32
  let main_v20 : FVec F S1x1x1x128 .f32 := broadcastInDim S1x1x1x128 ![] bcast_S_S1x1x1x128 main_cst_6
  let main_v21 : IVec S1x1x1x128 1 := cmpf .olt main_v19 main_v20
  let main_c_7 : IVec S_ 1 := constantI S_ 1 1#1
  let main_v22 : IVec S_ 1 := (fun x v => Host.reduce IntOp.andi x v reducesTo_S1x1x1x128_S_d0_1_2_3 h_S_) main_v21 main_c_7
  let main_v23 : IVec S_ 1 := andi main_v18 main_v22
  main_v23

def fn {F : FTy → Type} [FloatOps F] (main_arg0 : FVec F S8192x6144 .f32) (main_arg1 : FVec F S128 .f32) (main_arg2 : FVec F S128 .f32) (main_arg3 : FVec F S1x1x1x128 .f32) (main_arg4 : FVec F S1x1x1x128 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x1x1x128 .f32 := Host.absf main_arg3
  let main_cst_4 : FVec F S_ .f32 := constant S_ .f32 0x7F800000#32
  let main_v15 : FVec F S1x1x1x128 .f32 := broadcastInDim S1x1x1x128 ![] bcast_S_S1x1x1x128 main_cst_4
  let main_v16 : IVec S1x1x1x128 1 := cmpf .olt main_v14 main_v15
  fn_part1 (F := F) main_arg4 main_v13 main_v16
-- ==== Kernel.lean ====
abbrev S8192x6144 : Shape := ⟨2, ![8192, 6144]⟩
abbrev S128 : Shape := ⟨1, ![128]⟩
abbrev S1x1x1x128 : Shape := ⟨4, ![1, 1, 1, 128]⟩
abbrev S1x128 : Shape := ⟨2, ![1, 128]⟩
abbrev S8192x4096 : Shape := ⟨2, ![8192, 4096]⟩
abbrev S8192x1024 : Shape := ⟨2, ![8192, 1024]⟩
abbrev S512x6144 : Shape := ⟨2, ![512, 6144]⟩
abbrev S512x4096 : Shape := ⟨2, ![512, 4096]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x8192x32x128 : Shape := ⟨4, ![1, 8192, 32, 128]⟩
abbrev S1x8192x8x128 : Shape := ⟨4, ![1, 8192, 8, 128]⟩

abbrev nBuf : Space → Nat
  | .hbm => 14
  | .vmem => 12
  | .smem => 0
  | _ => 0

abbrev bufTy : (tb : Table) → Fin (tcTables nBuf tb) → BufTy
  | .hbm, ⟨0, _⟩ => ⟨S8192x6144, .f32⟩
  | .hbm, ⟨1, _⟩ => ⟨S128, .f32⟩
  | .hbm, ⟨2, _⟩ => ⟨S128, .f32⟩
  | .hbm, ⟨3, _⟩ => ⟨S1x1x1x128, .f32⟩
  | .hbm, ⟨4, _⟩ => ⟨S1x1x1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S1x8192x32x128, .f32⟩
  | .hbm, ⟨13, _⟩ => ⟨S1x8192x8x128, .f32⟩
  | .local _ .vmem, ⟨0, _⟩ => ⟨S512x6144, .f32⟩
  | .local _ .vmem, ⟨1, _⟩ => ⟨S512x6144, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S512x4096, .f32⟩
  | .local _ .vmem, ⟨7, _⟩ => ⟨S512x4096, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S1x1x1x128_S1x128 : S1x1x1x128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x6144_S512x128_0_0 : ∀ a, (![0, 0] : Fin 2 → Nat) a + S512x128.size a ≤ S512x6144.size a
  h_S512x128 : 0 < S512x128.numel
  reduces_S512x128_S512 : S512x128.Reduces [1] S512
  shapeCasts_S512_S512x1 : S512.ShapeCasts S512x1
  broadcasts_S512x1_S512x128 : S512x1.Broadcasts S512x128
  broadcasts_S1x128_S512x128 : S1x128.Broadcasts S512x128
  slices_S512x128_o0_0_S512x64 : S512x128.Slices ![0, 0] S512x64
  slices_S512x128_o0_64_S512x64 : S512x128.Slices ![0, 64] S512x64
  concatenates_S512x64_S512x64_S512x128_d1 : Shape.Concatenates [S512x64, S512x64] S512x128 1
  inb_S512x4096_S512x128_0_0 : ∀ a, (![0, 0] : Fin 2 → Nat) a + S512x128.size a ≤ S512x4096.size a
  inb_S512x6144_S512x128_0_128 : ∀ a, (![0, 128] : Fin 2 → Nat) a + S512x128.size a ≤ S512x6144.size a
  inb_S512x4096_S512x128_0_128 : ∀ a, (![0, 128] : Fin 2 → Nat) a + S512x128.size a ≤ S512x4096.size a
  inb_S512x6144_S512x128_0_256 : ∀ a, (![0, 256] : Fin 2 → Nat) a + S512x128.size a ≤ S512x6144.size a
  inb_S512x4096_S512x128_0_256 : ∀ a, (![0, 256] : Fin 2 → Nat) a + S512x128.size a ≤ S512x4096.size a
  inb_S512x6144_S512x128_0_384 : ∀ a, (![0, 384] : Fin 2 → Nat) a + S512x128.size a ≤ S512x6144.size a
  inb_S512x4096_S512x128_0_384 : ∀ a, (![0, 384] : Fin 2 → Nat) a + S512x128.size a ≤ S512x4096.size a
  inb_S512x6144_S512x128_0_512 : ∀ a, (![0, 512] : Fin 2 → Nat) a + S512x128.size a ≤ S512x6144.size a
  inb_S512x4096_S512x128_0_512 : ∀ a, (![0, 512] : Fin 2 → Nat) a + S512x128.size a ≤ S512x4096.size a
  inb_S512x6144_S512x128_0_640 : ∀ a, (![0, 640] : Fin 2 → Nat) a + S512x128.size a ≤ S512x6144.size a
  inb_S512x4096_S512x128_0_640 : ∀ a, (![0, 640] : Fin 2 → Nat) a + S512x128.size a ≤ S512x4096.size a
  inb_S512x6144_S512x128_0_768 : ∀ a, (![0, 768] : Fin 2 → Nat) a + S512x128.size a ≤ S512x6144.size a
  inb_S512x4096_S512x128_0_768 : ∀ a, (![0, 768] : Fin 2 → Nat) a + S512x128.size a ≤ S512x4096.size a
  inb_S512x6144_S512x128_0_896 : ∀ a, (![0, 896] : Fin 2 → Nat) a + S512x128.size a ≤ S512x6144.size a
  inb_S512x4096_S512x128_0_896 : ∀ a, (![0, 896] : Fin 2 → Nat) a + S512x128.size a ≤ S512x4096.size a
  inb_S512x6144_S512x128_0_1024 : ∀ a, (![0, 1024] : Fin 2 → Nat) a + S512x128.size a ≤ S512x6144.size a
  inb_S512x4096_S512x128_0_1024 : ∀ a, (![0, 1024] : Fin 2 → Nat) a + S512x128.size a ≤ S512x4096.size a
  inb_S512x6144_S512x128_0_1152 : ∀ a, (![0, 1152] : Fin 2 → Nat) a + S512x128.size a ≤ S512x6144.size a
  inb_S512x4096_S512x128_0_1152 : ∀ a, (![0, 1152] : Fin 2 → Nat) a + S512x128.size a ≤ S512x4096.size a
  inb_S512x6144_S512x128_0_1280 : ∀ a, (![0, 1280] : Fin 2 → Nat) a + S512x128.size a ≤ S512x6144.size a
  inb_S512x4096_S512x128_0_1280 : ∀ a, (![0, 1280] : Fin 2 → Nat) a + S512x128.size a ≤ S512x4096.size a
  inb_S512x6144_S512x128_0_1408 : ∀ a, (![0, 1408] : Fin 2 → Nat) a + S512x128.size a ≤ S512x6144.size a
  inb_S512x4096_S512x128_0_1408 : ∀ a, (![0, 1408] : Fin 2 → Nat) a + S512x128.size a ≤ S512x4096.size a
  inb_S512x6144_S512x128_0_1536 : ∀ a, (![0, 1536] : Fin 2 → Nat) a + S512x128.size a ≤ S512x6144.size a
  inb_S512x4096_S512x128_0_1536 : ∀ a, (![0, 1536] : Fin 2 → Nat) a + S512x128.size a ≤ S512x4096.size a
  inb_S512x6144_S512x128_0_1664 : ∀ a, (![0, 1664] : Fin 2 → Nat) a + S512x128.size a ≤ S512x6144.size a
  inb_S512x4096_S512x128_0_1664 : ∀ a, (![0, 1664] : Fin 2 → Nat) a + S512x128.size a ≤ S512x4096.size a
  inb_S512x6144_S512x128_0_1792 : ∀ a, (![0, 1792] : Fin 2 → Nat) a + S512x128.size a ≤ S512x6144.size a
  inb_S512x4096_S512x128_0_1792 : ∀ a, (![0, 1792] : Fin 2 → Nat) a + S512x128.size a ≤ S512x4096.size a
  inb_S512x6144_S512x128_0_1920 : ∀ a, (![0, 1920] : Fin 2 → Nat) a + S512x128.size a ≤ S512x6144.size a
  inb_S512x4096_S512x128_0_1920 : ∀ a, (![0, 1920] : Fin 2 → Nat) a + S512x128.size a ≤ S512x4096.size a
  inb_S512x6144_S512x128_0_2048 : ∀ a, (![0, 2048] : Fin 2 → Nat) a + S512x128.size a ≤ S512x6144.size a
  inb_S512x4096_S512x128_0_2048 : ∀ a, (![0, 2048] : Fin 2 → Nat) a + S512x128.size a ≤ S512x4096.size a
  inb_S512x6144_S512x128_0_2176 : ∀ a, (![0, 2176] : Fin 2 → Nat) a + S512x128.size a ≤ S512x6144.size a
  inb_S512x4096_S512x128_0_2176 : ∀ a, (![0, 2176] : Fin 2 → Nat) a + S512x128.size a ≤ S512x4096.size a
  inb_S512x6144_S512x128_0_2304 : ∀ a, (![0, 2304] : Fin 2 → Nat) a + S512x128.size a ≤ S512x6144.size a
  inb_S512x4096_S512x128_0_2304 : ∀ a, (![0, 2304] : Fin 2 → Nat) a + S512x128.size a ≤ S512x4096.size a
  inb_S512x6144_S512x128_0_2432 : ∀ a, (![0, 2432] : Fin 2 → Nat) a + S512x128.size a ≤ S512x6144.size a
  inb_S512x4096_S512x128_0_2432 : ∀ a, (![0, 2432] : Fin 2 → Nat) a + S512x128.size a ≤ S512x4096.size a
  inb_S512x6144_S512x128_0_2560 : ∀ a, (![0, 2560] : Fin 2 → Nat) a + S512x128.size a ≤ S512x6144.size a
  inb_S512x4096_S512x128_0_2560 : ∀ a, (![0, 2560] : Fin 2 → Nat) a + S512x128.size a ≤ S512x4096.size a
  inb_S512x6144_S512x128_0_2688 : ∀ a, (![0, 2688] : Fin 2 → Nat) a + S512x128.size a ≤ S512x6144.size a
  inb_S512x4096_S512x128_0_2688 : ∀ a, (![0, 2688] : Fin 2 → Nat) a + S512x128.size a ≤ S512x4096.size a
  inb_S512x6144_S512x128_0_2816 : ∀ a, (![0, 2816] : Fin 2 → Nat) a + S512x128.size a ≤ S512x6144.size a
  inb_S512x4096_S512x128_0_2816 : ∀ a, (![0, 2816] : Fin 2 → Nat) a + S512x128.size a ≤ S512x4096.size a
  inb_S512x6144_S512x128_0_2944 : ∀ a, (![0, 2944] : Fin 2 → Nat) a + S512x128.size a ≤ S512x6144.size a
  inb_S512x4096_S512x128_0_2944 : ∀ a, (![0, 2944] : Fin 2 → Nat) a + S512x128.size a ≤ S512x4096.size a
  inb_S512x6144_S512x128_0_3072 : ∀ a, (![0, 3072] : Fin 2 → Nat) a + S512x128.size a ≤ S512x6144.size a
  inb_S512x4096_S512x128_0_3072 : ∀ a, (![0, 3072] : Fin 2 → Nat) a + S512x128.size a ≤ S512x4096.size a
  inb_S512x6144_S512x128_0_3200 : ∀ a, (![0, 3200] : Fin 2 → Nat) a + S512x128.size a ≤ S512x6144.size a
  inb_S512x4096_S512x128_0_3200 : ∀ a, (![0, 3200] : Fin 2 → Nat) a + S512x128.size a ≤ S512x4096.size a
  inb_S512x6144_S512x128_0_3328 : ∀ a, (![0, 3328] : Fin 2 → Nat) a + S512x128.size a ≤ S512x6144.size a
  inb_S512x4096_S512x128_0_3328 : ∀ a, (![0, 3328] : Fin 2 → Nat) a + S512x128.size a ≤ S512x4096.size a
  inb_S512x6144_S512x128_0_3456 : ∀ a, (![0, 3456] : Fin 2 → Nat) a + S512x128.size a ≤ S512x6144.size a
  inb_S512x4096_S512x128_0_3456 : ∀ a, (![0, 3456] : Fin 2 → Nat) a + S512x128.size a ≤ S512x4096.size a
  inb_S512x6144_S512x128_0_3584 : ∀ a, (![0, 3584] : Fin 2 → Nat) a + S512x128.size a ≤ S512x6144.size a
  inb_S512x4096_S512x128_0_3584 : ∀ a, (![0, 3584] : Fin 2 → Nat) a + S512x128.size a ≤ S512x4096.size a
  inb_S512x6144_S512x128_0_3712 : ∀ a, (![0, 3712] : Fin 2 → Nat) a + S512x128.size a ≤ S512x6144.size a
  inb_S512x4096_S512x128_0_3712 : ∀ a, (![0, 3712] : Fin 2 → Nat) a + S512x128.size a ≤ S512x4096.size a
  inb_S512x6144_S512x128_0_3840 : ∀ a, (![0, 3840] : Fin 2 → Nat) a + S512x128.size a ≤ S512x6144.size a
  inb_S512x4096_S512x128_0_3840 : ∀ a, (![0, 3840] : Fin 2 → Nat) a + S512x128.size a ≤ S512x4096.size a
  inb_S512x6144_S512x128_0_3968 : ∀ a, (![0, 3968] : Fin 2 → Nat) a + S512x128.size a ≤ S512x6144.size a
  inb_S512x4096_S512x128_0_3968 : ∀ a, (![0, 3968] : Fin 2 → Nat) a + S512x128.size a ≤ S512x4096.size a
  inb_S512x6144_S512x128_0_4096 : ∀ a, (![0, 4096] : Fin 2 → Nat) a + S512x128.size a ≤ S512x6144.size a
  inb_S512x1024_S512x128_0_0 : ∀ a, (![0, 0] : Fin 2 → Nat) a + S512x128.size a ≤ S512x1024.size a
  inb_S512x6144_S512x128_0_4224 : ∀ a, (![0, 4224] : Fin 2 → Nat) a + S512x128.size a ≤ S512x6144.size a
  inb_S512x1024_S512x128_0_128 : ∀ a, (![0, 128] : Fin 2 → Nat) a + S512x128.size a ≤ S512x1024.size a
  inb_S512x6144_S512x128_0_4352 : ∀ a, (![0, 4352] : Fin 2 → Nat) a + S512x128.size a ≤ S512x6144.size a
  inb_S512x1024_S512x128_0_256 : ∀ a, (![0, 256] : Fin 2 → Nat) a + S512x128.size a ≤ S512x1024.size a
  inb_S512x6144_S512x128_0_4480 : ∀ a, (![0, 4480] : Fin 2 → Nat) a + S512x128.size a ≤ S512x6144.size a
  inb_S512x1024_S512x128_0_384 : ∀ a, (![0, 384] : Fin 2 → Nat) a + S512x128.size a ≤ S512x1024.size a
  inb_S512x6144_S512x128_0_4608 : ∀ a, (![0, 4608] : Fin 2 → Nat) a + S512x128.size a ≤ S512x6144.size a
  inb_S512x1024_S512x128_0_512 : ∀ a, (![0, 512] : Fin 2 → Nat) a + S512x128.size a ≤ S512x1024.size a
  inb_S512x6144_S512x128_0_4736 : ∀ a, (![0, 4736] : Fin 2 → Nat) a + S512x128.size a ≤ S512x6144.size a
  inb_S512x1024_S512x128_0_640 : ∀ a, (![0, 640] : Fin 2 → Nat) a + S512x128.size a ≤ S512x1024.size a
  inb_S512x6144_S512x128_0_4864 : ∀ a, (![0, 4864] : Fin 2 → Nat) a + S512x128.size a ≤ S512x6144.size a
  inb_S512x1024_S512x128_0_768 : ∀ a, (![0, 768] : Fin 2 → Nat) a + S512x128.size a ≤ S512x1024.size a
  inb_S512x6144_S512x128_0_4992 : ∀ a, (![0, 4992] : Fin 2 → Nat) a + S512x128.size a ≤ S512x6144.size a
  inb_S512x1024_S512x128_0_896 : ∀ a, (![0, 896] : Fin 2 → Nat) a + S512x128.size a ≤ S512x1024.size a
  inb_S512x6144_S512x1024_0_5120 : ∀ a, (![0, 5120] : Fin 2 → Nat) a + S512x1024.size a ≤ S512x6144.size a
  h_S512x1024 : 0 < S512x1024.numel
  inb_S512x1024_S512x1024_0_0 : ∀ a, (![0, 0] : Fin 2 → Nat) a + S512x1024.size a ≤ S512x1024.size a
  shapeCasts_S8192x4096_S1x8192x32x128 : S8192x4096.ShapeCasts S1x8192x32x128
  shapeCasts_S8192x1024_S1x8192x8x128 : S8192x1024.ShapeCasts S1x8192x8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6144.size a ≤ S8192x6144.size a
  hwx0_0 : ∀ i : grid0.Coords, EltTy.bits .f32 = 32 ∨ (Rect.block (s := S8192x6144) S512x6144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

abbrev win0_0 : Pipeline.Window sig grid0 :=
  Pipeline.Window.ofSpec (Memref.whole main_arg0) S512x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x6144 : Shape := ⟨2, ![8192, 6144]⟩
abbrev S128 : Shape := ⟨1, ![128]⟩
abbrev S1x1x1x128 : Shape := ⟨4, ![1, 1, 1, 128]⟩
abbrev S8192x4096 : Shape := ⟨2, ![8192, 4096]⟩
abbrev S8192x1024 : Shape := ⟨2, ![8192, 1024]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S1x1x128 : Shape := ⟨3, ![1, 1, 128]⟩
abbrev S1x8192x32x128 : Shape := ⟨4, ![1, 8192, 32, 128]⟩
abbrev S8192x8x128 : Shape := ⟨3, ![8192, 8, 128]⟩
abbrev S8192x8 : Shape := ⟨2, ![8192, 8]⟩
abbrev S8192x8x1 : Shape := ⟨3, ![8192, 8, 1]⟩
abbrev S1x8192x8x128 : Shape := ⟨4, ![1, 8192, 8, 128]⟩
abbrev S1x8192x32x64 : Shape := ⟨4, ![1, 8192, 32, 64]⟩
abbrev S1x8192x8x64 : Shape := ⟨4, ![1, 8192, 8, 64]⟩

abbrev nBuf : Space → Nat
  | .hbm => 62
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S128, .f32⟩
  | .hbm, ⟨2, _⟩ => ⟨S128, .f32⟩
  | .hbm, ⟨3, _⟩ => ⟨S1x1x1x128, .f32⟩
  | .hbm, ⟨4, _⟩ => ⟨S1x1x1x128, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S8192x32x128, .f32⟩
  | .hbm, ⟨9, _⟩ => ⟨S8192x32x128, .f32⟩
  | .hbm, ⟨10, _⟩ => ⟨S_, .f32⟩
  | .hbm, ⟨11, _⟩ => ⟨S8192x32, .f32⟩
  | .hbm, ⟨12, _⟩ => ⟨S8192x32x1, .f32⟩
  | .hbm, ⟨13, _⟩ => ⟨S_, .f32⟩
  | .hbm, ⟨14, _⟩ => ⟨S8192x32x1, .f32⟩
  | .hbm, ⟨15, _⟩ => ⟨S8192x32x1, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S8192x32x1, .f32⟩
  | .hbm, ⟨20, _⟩ => ⟨S8192x32x128, .f32⟩
  | .hbm, ⟨21, _⟩ => ⟨S8192x32x128, .f32⟩
  | .hbm, ⟨22, _⟩ => ⟨S1x1x128, .f32⟩
  | .hbm, ⟨23, _⟩ => ⟨S8192x32x128, .f32⟩
  | .hbm, ⟨24, _⟩ => ⟨S8192x32x128, .f32⟩
  | .hbm, ⟨25, _⟩ => ⟨S1x8192x32x128, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S8192x8, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S_, .f32⟩
  | .hbm, ⟨35, _⟩ => ⟨S8192x8x1, .f32⟩
  | .hbm, ⟨36, _⟩ => ⟨S8192x8x1, .f32⟩
  | .hbm, ⟨37, _⟩ => ⟨S8192x8x1, .f32⟩
  | .hbm, ⟨38, _⟩ => ⟨S8192x8x128, .f32⟩
  | .hbm, ⟨39, _⟩ => ⟨S8192x8x128, .f32⟩
  | .hbm, ⟨40, _⟩ => ⟨S1x1x128, .f32⟩
  | .hbm, ⟨41, _⟩ => ⟨S8192x8x128, .f32⟩
  | .hbm, ⟨42, _⟩ => ⟨S8192x8x128, .f32⟩
  | .hbm, ⟨43, _⟩ => ⟨S1x8192x8x128, .f32⟩
  | .hbm, ⟨44, _⟩ => ⟨S1x8192x32x128, .f32⟩
  | .hbm, ⟨45, _⟩ => ⟨S1x8192x32x128, .f32⟩
  | .hbm, ⟨46, _⟩ => ⟨S1x8192x32x64, .f32⟩
  | .hbm, ⟨47, _⟩ => ⟨S1x8192x32x64, .f32⟩
  | .hbm, ⟨48, _⟩ => ⟨S1x8192x32x64, .f32⟩
  | .hbm, ⟨49, _⟩ => ⟨S1x8192x32x128, .f32⟩
  | .hbm, ⟨50, _⟩ => ⟨S1x8192x32x128, .f32⟩
  | .hbm, ⟨51, _⟩ => ⟨S1x8192x32x128, .f32⟩
  | .hbm, ⟨52, _⟩ => ⟨S1x8192x32x128, .f32⟩
  | .hbm, ⟨53, _⟩ => ⟨S1x8192x8x128, .f32⟩
  | .hbm, ⟨54, _⟩ => ⟨S1x8192x8x128, .f32⟩
  | .hbm, ⟨55, _⟩ => ⟨S1x8192x8x64, .f32⟩
  | .hbm, ⟨56, _⟩ => ⟨S1x8192x8x64, .f32⟩
  | .hbm, ⟨57, _⟩ => ⟨S1x8192x8x64, .f32⟩
  | .hbm, ⟨58, _⟩ => ⟨S1x8192x8x128, .f32⟩
  | .hbm, ⟨59, _⟩ => ⟨S1x8192x8x128, .f32⟩
  | .hbm, ⟨60, _⟩ => ⟨S1x8192x8x128, .f32⟩
  | .hbm, ⟨61, _⟩ => ⟨S1x8192x8x128, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]

class Facts₀ : Prop where
  slices_S8192x6144_S8192x4096_0_0 : S8192x6144.Slices ![0, 0] S8192x4096
  slices_S8192x6144_S8192x1024_0_4096 : S8192x6144.Slices ![0, 4096] S8192x1024
  slices_S8192x6144_S8192x1024_0_5120 : S8192x6144.Slices ![0, 5120] S8192x1024
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S128_S1x1x128_2 : S128.BroadcastsInDim S1x1x128 (![2] : Fin 1 → Fin S1x1x128.rank)
  bcast_S1x1x128_S8192x32x128_0_1_2 : S1x1x128.BroadcastsInDim S8192x32x128 (![0, 1, 2] : Fin 3 → Fin S8192x32x128.rank)
  shapeCasts_S8192x32x128_S1x8192x32x128 : S8192x32x128.ShapeCasts S1x8192x32x128
  shapeCasts_S8192x1024_S8192x8x128 : S8192x1024.ShapeCasts S8192x8x128
  reducesTo_S8192x8x128_S8192x8_d2 : S8192x8x128.ReducesTo [2] S8192x8
  bcast_S8192x8_S8192x8x1_0_1 : S8192x8.BroadcastsInDim S8192x8x1 (![0, 1] : Fin 2 → Fin S8192x8x1.rank)
  bcast_S_S8192x8x1 : S_.BroadcastsInDim S8192x8x1 (![] : Fin 0 → Fin S8192x8x1.rank)
  bcast_S8192x8x1_S8192x8x128_0_1_2 : S8192x8x1.BroadcastsInDim S8192x8x128 (![0, 1, 2] : Fin 3 → Fin S8192x8x128.rank)
  bcast_S1x1x128_S8192x8x128_0_1_2 : S1x1x128.BroadcastsInDim S8192x8x128 (![0, 1, 2] : Fin 3 → Fin S8192x8x128.rank)
  shapeCasts_S8192x8x128_S1x8192x8x128 : S8192x8x128.ShapeCasts S1x8192x8x128
  bcast_S1x1x1x128_S1x8192x32x128_0_1_2_3 : S1x1x1x128.BroadcastsInDim S1x8192x32x128 (![0, 1, 2, 3] : Fin 4 → Fin S1x8192x32x128.rank)
  slices_S1x8192x32x128_S1x8192x32x64_0_0_0_0 : S1x8192x32x128.Slices ![0, 0, 0, 0] S1x8192x32x64
  slices_S1x8192x32x128_S1x8192x32x64_0_0_0_64 : S1x8192x32x128.Slices ![0, 0, 0, 64] S1x8192x32x64
  concatenates_S1x8192x32x64_S1x8192x32x64_S1x8192x32x128_d3 : Shape.Concatenates [S1x8192x32x64, S1x8192x32x64] S1x8192x32x128 3
  bcast_S1x1x1x128_S1x8192x8x128_0_1_2_3 : S1x1x1x128.BroadcastsInDim S1x8192x8x128 (![0, 1, 2, 3] : Fin 4 → Fin S1x8192x8x128.rank)
  slices_S1x8192x8x128_S1x8192x8x64_0_0_0_0 : S1x8192x8x128.Slices ![0, 0, 0, 0] S1x8192x8x64
  slices_S1x8192x8x128_S1x8192x8x64_0_0_0_64 : S1x8192x8x128.Slices ![0, 0, 0, 64] S1x8192x8x64
  concatenates_S1x8192x8x64_S1x8192x8x64_S1x8192x8x128_d3 : Shape.Concatenates [S1x8192x8x64, S1x8192x8x64] S1x8192x8x128 3

variable [Facts₀]

class Facts : Prop extends Facts₀ where

variable [Facts]
-- ==== Proof.RopeSpec.lean ====
/-
  The mathematics both programs compute, stated once on the extended reals.

  One head of one token is a vector `X` of 128 numbers. It is scaled by the reciprocal root of its mean square plus a
  small constant, `(Σ X² / 128 + ε)^(-1/2)`, and by a weight per lane (`normed`); the rotary step then pairs lane `d`
  with the lane 64 further on (`rot`: the upper half negated into the lower lanes, the lower half copied into the upper
  ones) and combines the two with a cosine and a sine table (`rope`). The query heads are the 32 consecutive
  128-column groups of a row of the fused array, the key heads the next 8 groups, and the value columns are the last
  1024, copied unchanged.

  The two float words are kept as words (`0x43000000` is 128, `0x358637BD` the small constant): both programs spell
  them identically, so they are never evaluated.
-/
import Idealize.ShloMosaic.PureOps.Ideal
import Idealize.ShloMosaic.Lib.ValueIdx

noncomputable section

open scoped BigOperators

namespace Cert.Rope

open Idealize.ShloMosaic Idealize.ShloMosaic.ValueIdx

/-- The reciprocal root of the mean square of a 128-vector, shifted by the small constant. -/
def scale (X : Fin 128 → EReal) : EReal :=
  Ideal.rsqrt (Ideal.div (∑ k : Fin 128, X k * X k) (Ideal.ofBits .f32 0x43000000#32) + Ideal.ofBits .f32 0x358637BD#32)

/-- Lane `k` of the normalised, weighted vector. -/
def normed (X w : Fin 128 → EReal) (k : Fin 128) : EReal := X k * scale X * w k

/-- The half rotation: lane `d` below 64 reads minus lane `d + 64`, lane `d` from 64 on reads lane `d - 64`. -/
def rot (Y : Fin 128 → EReal) (d : Fin 128) : EReal :=
  if h : d.val < 64 then -(Y ⟨d.val + 64, by omega⟩) else Y ⟨d.val - 64, by omega⟩

/-- One lane of the rotary embedding of the normalised vector. -/
def rope (X w c s : Fin 128 → EReal) (d : Fin 128) : EReal :=
  normed X w d * c d + rot (normed X w) d * s d

/-- The 128 columns of row `r` of the fused array that start at column `col`. -/
def headRow (qkv : (⟨2, ![8192, 6144]⟩ : Shape).Idx → EReal) (r : Fin 8192) (col : ℕ) (hcol : col + 128 ≤ 6144) :
    Fin 128 → EReal :=
  fun k => qkv (ix2 r (⟨col + k.val, by have := k.isLt; omega⟩ : Fin 6144))

/-- A weight vector of 128 lanes as a function of the lane. -/
def lanes1 (w : (⟨1, ![128]⟩ : Shape).Idx → EReal) : Fin 128 → EReal := fun k => w (ix1 k)

/-- A `[1, 1, 1, 128]` table as a function of the lane. -/
def lanes4 (c : (⟨4, ![1, 1, 1, 128]⟩ : Shape).Idx → EReal) : Fin 128 → EReal :=
  fun k => c (ix4 (0 : Fin 1) (0 : Fin 1) (0 : Fin 1) k)

/-- Query head `h` of token `r` at lane `d`: columns `128 h … 128 h + 127`. -/
def qAt (qkv : (⟨2, ![8192, 6144]⟩ : Shape).Idx → EReal) (qw : (⟨1, ![128]⟩ : Shape).Idx → EReal)
    (cos sin : (⟨4, ![1, 1, 1, 128]⟩ : Shape).Idx → EReal) (r : Fin 8192) (h : Fin 32) (d : Fin 128) : EReal :=
  rope (headRow qkv r (128 * h.val) (by have := h.isLt; omega)) (lanes1 qw) (lanes4 cos) (lanes4 sin) d

/-- Key head `h` of token `r` at lane `d`: columns `4096 + 128 h … 4096 + 128 h + 127`. -/
def kAt (qkv : (⟨2, ![8192, 6144]⟩ : Shape).Idx → EReal) (kw : (⟨1, ![128]⟩ : Shape).Idx → EReal)
    (cos sin : (⟨4, ![1, 1, 1, 128]⟩ : Shape).Idx → EReal) (r : Fin 8192) (h : Fin 8) (d : Fin 128) : EReal :=
  rope (headRow qkv r (4096 + 128 * h.val) (by have := h.isLt; omega)) (lanes1 kw) (lanes4 cos) (lanes4 sin) d

/-- The query result, `[1, 8192, 32, 128]`. -/
def qOut (qkv : (⟨2, ![8192, 6144]⟩ : Shape).Idx → EReal) (qw : (⟨1, ![128]⟩ : Shape).Idx → EReal)
    (cos sin : (⟨4, ![1, 1, 1, 128]⟩ : Shape).Idx → EReal) : (⟨4, ![1, 8192, 32, 128]⟩ : Shape).Idx → EReal :=
  fun i => qAt qkv qw cos sin (i 1) (i 2) (i 3)

/-- The key result, `[1, 8192, 8, 128]`. -/
def kOut (qkv : (⟨2, ![8192, 6144]⟩ : Shape).Idx → EReal) (kw : (⟨1, ![128]⟩ : Shape).Idx → EReal)
    (cos sin : (⟨4, ![1, 1, 1, 128]⟩ : Shape).Idx → EReal) : (⟨4, ![1, 8192, 8, 128]⟩ : Shape).Idx → EReal :=
  fun i => kAt qkv kw cos sin (i 1) (i 2) (i 3)

/-- The value result, `[8192, 1024]`: the last 1024 columns. -/
def vOut (qkv : (⟨2, ![8192, 6144]⟩ : Shape).Idx → EReal) : (⟨2, ![8192, 1024]⟩ : Shape).Idx → EReal :=
  fun i => qkv (ix2 (i 0) (⟨5120 + (i 1).val, by have h : (i 1).val < 1024 := (i 1).isLt; omega⟩ : Fin 6144))

end Cert.Rope

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.HeadFn.lean ====
/-
  One head of the kernel body as a function of what it loads, and its value at an index.

  The body treats each 128-column group of its 512-row block alike: square, sum along the lanes, divide by 128, add the
  small constant, take the reciprocal root, scale the group by it and by the weight row (`nrm`); then cut the result
  into its two 64-lane halves, put the negated upper half before the lower one (`rotated`) and combine with the
  cosine and sine rows (`head`). Read at row `p` and lane `q` this is the specification's `rope` of row `p`.
-/
import proofs.«135246_j76587856822535_1_alg».proof.Proof.Gen.KernelIdeal.Skeleton
import proofs.«135246_j76587856822535_1_alg».proof.Proof.RopeSpec
import proofs.«135246_j76587856822535_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HeadFn

open Idealize.ShloMosaic Idealize.ShloMosaic.ValueIdx Cert.KernelIdeal Cert.KernelIdeal.Gen

section Generic
variable {F : FTy → Type} [FloatOps F]

/-- The group scaled by the reciprocal root of its rows' mean squares and by the weight row. -/
def nrm (w : FVec F S1x128 .f32) (x : Vec F S512x128 .f32) : FVec F S512x128 .f32 :=
  mulf (mulf x (broadcastTo S512x128 (rsqrt (addf (divf (shapeCast S512x1
      (multiReduction .add [1] S512 (mulf x x) 0x00000000#32 reduces_S512x128_S512 (.inl rfl) rfl) shapeCasts_S512_S512x1)
      (broadcast S512x1 (Scalar.ofBits .f32 0x43000000#32))) (broadcast S512x1 (Scalar.ofBits .f32 0x358637BD#32))))
      broadcasts_S512x1_S512x128)) (broadcastTo S512x128 w broadcasts_S1x128_S512x128)

/-- The two 64-lane halves exchanged, the upper one subtracted from zero. -/
def rotated (y : FVec F S512x128 .f32) : FVec F S512x128 .f32 :=
  concatenate S512x128 1 [⟨S512x64, subf (broadcast S512x64 (Scalar.ofBits .f32 0x00000000#32))
      (extractStridedSlice S512x64 ![0, 64] y slices_S512x128_o0_64_S512x64)⟩,
    ⟨S512x64, extractStridedSlice S512x64 ![0, 0] y slices_S512x128_o0_0_S512x64⟩] concatenates_S512x64_S512x64_S512x128_d1

/-- One head: the scaled group times the cosine row plus its half rotation times the sine row. -/
def head (c s w : FVec F S1x128 .f32) (x : Vec F S512x128 .f32) : FVec F S512x128 .f32 :=
  addf (mulf (nrm w x) (broadcastTo S512x128 c broadcasts_S1x128_S512x128))
    (mulf (rotated (nrm w x)) (broadcastTo S512x128 s broadcasts_S1x128_S512x128))

end Generic

/-- Row `p` of a group, as a function of the lane. -/
def rowOf (x : Vec Ideal S512x128 .f32) (p : Fin 512) : Fin 128 → EReal := fun k => x (ix2 p k)
/-- A `[1, 128]` row as a function of the lane. -/
def laneOf (w : FVec Ideal S1x128 .f32) : Fin 128 → EReal := fun k => w (ix2 (0 : Fin 1) k)

/-- The scaled group at row `p`, lane `k`, is the specification's normalised row. -/
theorem nrm_apply (w : FVec Ideal S1x128 .f32) (x : Vec Ideal S512x128 .f32) (p : Fin 512) (k : Fin 128) :
    nrm (F := Ideal) w x (ix2 p k) = Cert.Rope.normed (rowOf x p) (laneOf w) k := by
  unfold nrm Cert.Rope.normed Cert.Rope.scale rowOf laneOf
  rw [mulf_apply, mulf_apply, Cert.LibKeepdims.broadcastTo_a1_ab_apply, broadcastTo_1b_ab_apply]
  show x (ix2 p k) * Ideal.rsqrt (Ideal.div (shapeCast S512x1 _ shapeCasts_S512_S512x1 (ix2 p (0 : Fin 1))) _ + _) * _ = _
  rw [Cert.LibKeepdims.shapeCast_a_a1_apply]
  have e := Cert.LibKeepdims.multiReduction_add_rows (a := 512) (b := 128) (mulf x x) 0x00000000#32
    reduces_S512x128_S512 (.inl rfl) rfl p
  exact congrArg (fun z => x (ix2 p k) * Ideal.rsqrt (Ideal.div z (Ideal.ofBits .f32 0x43000000#32)
    + Ideal.ofBits .f32 0x358637BD#32) * w (ix2 (0 : Fin 1) k)) e

/-- The exchanged halves at row `p`, lane `q`: minus lane `q + 64` below 64, lane `q - 64` from 64 on. -/
theorem rotated_apply (y : FVec Ideal S512x128 .f32) (p : Fin 512) (q : Fin 128) :
    rotated (F := Ideal) y (ix2 p q) = Cert.Rope.rot (fun k => y (ix2 p k)) q := by
  unfold rotated Cert.Rope.rot
  by_cases hq : q.val < 64
  · rw [dif_pos hq]
    rw [concatenate_pair_apply_left (t := S512x128) (s₁ := S512x64) (s₂ := S512x64) (1 : Fin 2) _ _ concatenates_S512x64_S512x64_S512x128_d1 (ix2 p q) rfl
      (ix2 p (⟨q.val, hq⟩ : Fin 64)) (fun b => by match b with | ⟨0, _⟩ => rfl | ⟨1, _⟩ => rfl)]
    rw [subf_apply, broadcast_apply]
    rw [extractStridedSlice_apply ![0, 64] y slices_S512x128_o0_64_S512x64 (ix2 p (⟨q.val, hq⟩ : Fin 64))
      (ix2 p (⟨q.val + 64, by omega⟩ : Fin 128)) (fun a => by
        match a with
        | ⟨0, _⟩ => show p.val = 0 + p.val; omega
        | ⟨1, _⟩ => show q.val + 64 = 64 + q.val; omega)]
    show Ideal.ofBits .f32 0x00000000#32 - _ = _
    rw [Ideal.ofBits_zero_f32, zero_sub]
  · rw [dif_neg hq]
    have hq' : q.val - 64 < 64 := by have := q.isLt; omega
    rw [concatenate_pair_apply_right (t := S512x128) (s₁ := S512x64) (s₂ := S512x64) (1 : Fin 2) _ _ concatenates_S512x64_S512x64_S512x128_d1 (ix2 p q) rfl rfl
      (ix2 p (⟨q.val - 64, hq'⟩ : Fin 64))
      (fun b hb => by
        match b with
        | ⟨0, _⟩ => rfl
        | ⟨1, _⟩ => exact absurd rfl hb)
      (by show q.val - 64 + 64 = q.val; omega)]
    exact extractStridedSlice_apply ![0, 0] y slices_S512x128_o0_0_S512x64 (ix2 p (⟨q.val - 64, hq'⟩ : Fin 64))
      (ix2 p (⟨q.val - 64, by omega⟩ : Fin 128)) (fun a => by
        match a with
        | ⟨0, _⟩ => show p.val = 0 + p.val; omega
        | ⟨1, _⟩ => show q.val - 64 = 0 + (q.val - 64); omega)

/-- One head at row `p`, lane `q`, is the specification's rotary embedding of row `p`. -/
theorem head_apply (c s w : FVec Ideal S1x128 .f32) (x : Vec Ideal S512x128 .f32) (p : Fin 512) (q : Fin 128) :
    head (F := Ideal) c s w x (ix2 p q) = Cert.Rope.rope (rowOf x p) (laneOf w) (laneOf c) (laneOf s) q := by
  unfold head Cert.Rope.rope
  rw [addf_apply, mulf_apply, mulf_apply, broadcastTo_1b_ab_apply, broadcastTo_1b_ab_apply, rotated_apply, nrm_apply]
  have e : (fun k => nrm (F := Ideal) w x (ix2 p k)) = Cert.Rope.normed (rowOf x p) (laneOf w) :=
    funext fun k => nrm_apply w x p k
  rw [e]
  rfl

end Cert.KernelIdeal.HeadFn

end
-- ==== Proof.Payloads.lean ====
/-
  Every store of the kernel body writes one head. The body is printed as one long straight line of operations, cut at
  fixed positions, so the term stored for a head is spelt differently from head to head (some of its intermediate
  values are named, some are not); unfolded, each is the same head function (`HeadFn.head`) of the cosine, sine and
  weight rows and of the 128-column group loaded for that head. The 32 query heads use the first weight row, the 8 key
  heads the second.
-/
import proofs.«135246_j76587856822535_1_alg».proof.Proof.HeadFn

noncomputable section

namespace Cert.KernelIdeal.Payloads

open Idealize.ShloMosaic Cert.KernelIdeal Cert.KernelIdeal.Gen Cert.KernelIdeal.HeadFn

variable {F : FTy → Type} [FloatOps F]

/-! ## The query heads, by their position in the row -/

theorem payQ_0 (c0 s0 w0 : Vec F S1x128 .f32) (x : Vec F S512x128 .f32) :
    k0_pay6 c0 s0 w0 x = head (k0_pay2 c0) (k0_pay3 s0) (k0_pay4 w0) x := rfl

theorem payQ_1 (c0 s0 w0 : Vec F S1x128 .f32) (x : Vec F S512x128 .f32) :
    k0_pay8 (k0_pay2 c0) (k0_pay3 s0) (k0_pay4 w0) x (k0_pay7 x) = head (k0_pay2 c0) (k0_pay3 s0) (k0_pay4 w0) x := rfl

theorem payQ_2 (c0 s0 w0 : Vec F S1x128 .f32) (x : Vec F S512x128 .f32) :
    k0_pay9 (k0_pay2 c0) (k0_pay3 s0) (k0_pay4 w0) x = head (k0_pay2 c0) (k0_pay3 s0) (k0_pay4 w0) x := rfl

theorem payQ_3 (c0 s0 w0 : Vec F S1x128 .f32) (x : Vec F S512x128 .f32) :
    k0_pay11 (k0_pay2 c0) (k0_pay3 s0) (k0_pay4 w0) x (k0_pay10 x) = head (k0_pay2 c0) (k0_pay3 s0) (k0_pay4 w0) x := rfl

theorem payQ_4 (c0 s0 w0 : Vec F S1x128 .f32) (x : Vec F S512x128 .f32) :
    k0_pay12 (k0_pay2 c0) (k0_pay3 s0) (k0_pay4 w0) x = head (k0_pay2 c0) (k0_pay3 s0) (k0_pay4 w0) x := rfl

theorem payQ_5 (c0 s0 w0 : Vec F S1x128 .f32) (x : Vec F S512x128 .f32) :
    k0_pay13 (k0_pay2 c0) (k0_pay3 s0) (k0_pay4 w0) x = head (k0_pay2 c0) (k0_pay3 s0) (k0_pay4 w0) x := rfl

theorem payQ_6 (c0 s0 w0 : Vec F S1x128 .f32) (x : Vec F S512x128 .f32) :
    k0_pay17 (k0_pay3 s0) (k0_pay14 (k0_pay4 w0) x) (k0_pay15 (k0_pay4 w0) x) (k0_pay16 (k0_pay2 c0)) = head (k0_pay2 c0) (k0_pay3 s0) (k0_pay4 w0) x := rfl

theorem payQ_7 (c0 s0 w0 : Vec F S1x128 .f32) (x : Vec F S512x128 .f32) :
    k0_pay18 (k0_pay2 c0) (k0_pay3 s0) (k0_pay4 w0) x = head (k0_pay2 c0) (k0_pay3 s0) (k0_pay4 w0) x := rfl

theorem payQ_8 (c0 s0 w0 : Vec F S1x128 .f32) (x : Vec F S512x128 .f32) :
    k0_pay21 (k0_pay2 c0) (k0_pay3 s0) (k0_pay19 (k0_pay4 w0) x) (k0_pay20 (k0_pay4 w0) x) = head (k0_pay2 c0) (k0_pay3 s0) (k0_pay4 w0) x := rfl

theorem payQ_9 (c0 s0 w0 : Vec F S1x128 .f32) (x : Vec F S512x128 .f32) :
    k0_pay22 (k0_pay2 c0) (k0_pay3 s0) (k0_pay4 w0) x = head (k0_pay2 c0) (k0_pay3 s0) (k0_pay4 w0) x := rfl

theorem payQ_10 (c0 s0 w0 : Vec F S1x128 .f32) (x : Vec F S512x128 .f32) :
    k0_pay24 (k0_pay2 c0) (k0_pay3 s0) (k0_pay4 w0) x (k0_pay23 x) = head (k0_pay2 c0) (k0_pay3 s0) (k0_pay4 w0) x := rfl

theorem payQ_11 (c0 s0 w0 : Vec F S1x128 .f32) (x : Vec F S512x128 .f32) :
    k0_pay25 (k0_pay2 c0) (k0_pay3 s0) (k0_pay4 w0) x = head (k0_pay2 c0) (k0_pay3 s0) (k0_pay4 w0) x := rfl

theorem payQ_12 (c0 s0 w0 : Vec F S1x128 .f32) (x : Vec F S512x128 .f32) :
    k0_pay27 (k0_pay2 c0) (k0_pay3 s0) (k0_pay4 w0) x (k0_pay26 x) = head (k0_pay2 c0) (k0_pay3 s0) (k0_pay4 w0) x := rfl

theorem payQ_13 (c0 s0 w0 : Vec F S1x128 .f32) (x : Vec F S512x128 .f32) :
    k0_pay28 (k0_pay2 c0) (k0_pay3 s0) (k0_pay4 w0) x = head (k0_pay2 c0) (k0_pay3 s0) (k0_pay4 w0) x := rfl

theorem payQ_14 (c0 s0 w0 : Vec F S1x128 .f32) (x : Vec F S512x128 .f32) :
    k0_pay29 (k0_pay2 c0) (k0_pay3 s0) (k0_pay4 w0) x = head (k0_pay2 c0) (k0_pay3 s0) (k0_pay4 w0) x := rfl

theorem payQ_15 (c0 s0 w0 : Vec F S1x128 .f32) (x : Vec F S512x128 .f32) :
    k0_pay33 (k0_pay31 (k0_pay2 c0) (k0_pay4 w0) x) (k0_pay32 (k0_pay3 s0) (k0_pay4 w0) x) = head (k0_pay2 c0) (k0_pay3 s0) (k0_pay4 w0) x := rfl

theorem payQ_16 (c0 s0 w0 : Vec F S1x128 .f32) (x : Vec F S512x128 .f32) :
    k0_pay34 (k0_pay2 c0) (k0_pay3 s0) (k0_pay4 w0) x = head (k0_pay2 c0) (k0_pay3 s0) (k0_pay4 w0) x := rfl

theorem payQ_17 (c0 s0 w0 : Vec F S1x128 .f32) (x : Vec F S512x128 .f32) :
    k0_pay39 (k0_pay2 c0) (k0_pay3 s0) (k0_pay35 (k0_pay4 w0) x) (k0_pay36 (k0_pay4 w0) x) (k0_pay37 (k0_pay4 w0) x) (k0_pay38 (F := F)) = head (k0_pay2 c0) (k0_pay3 s0) (k0_pay4 w0) x := rfl

theorem payQ_18 (c0 s0 w0 : Vec F S1x128 .f32) (x : Vec F S512x128 .f32) :
    k0_pay40 (k0_pay2 c0) (k0_pay3 s0) (k0_pay4 w0) x = head (k0_pay2 c0) (k0_pay3 s0) (k0_pay4 w0) x := rfl

theorem payQ_19 (c0 s0 w0 : Vec F S1x128 .f32) (x : Vec F S512x128 .f32) :
    k0_pay42 (k0_pay2 c0) (k0_pay3 s0) (k0_pay4 w0) (k0_pay41 x) = head (k0_pay2 c0) (k0_pay3 s0) (k0_pay4 w0) x := rfl

theorem payQ_20 (c0 s0 w0 : Vec F S1x128 .f32) (x : Vec F S512x128 .f32) :
    k0_pay43 (k0_pay2 c0) (k0_pay3 s0) (k0_pay4 w0) x = head (k0_pay2 c0) (k0_pay3 s0) (k0_pay4 w0) x := rfl

theorem payQ_21 (c0 s0 w0 : Vec F S1x128 .f32) (x : Vec F S512x128 .f32) :
    k0_pay45 (k0_pay2 c0) (k0_pay3 s0) (k0_pay4 w0) x (k0_pay44 x) = head (k0_pay2 c0) (k0_pay3 s0) (k0_pay4 w0) x := rfl

theorem payQ_22 (c0 s0 w0 : Vec F S1x128 .f32) (x : Vec F S512x128 .f32) :
    k0_pay46 (k0_pay2 c0) (k0_pay3 s0) (k0_pay4 w0) x = head (k0_pay2 c0) (k0_pay3 s0) (k0_pay4 w0) x := rfl

theorem payQ_23 (c0 s0 w0 : Vec F S1x128 .f32) (x : Vec F S512x128 .f32) :
    k0_pay48 (k0_pay2 c0) (k0_pay3 s0) (k0_pay4 w0) x (k0_pay47 x) = head (k0_pay2 c0) (k0_pay3 s0) (k0_pay4 w0) x := rfl

theorem payQ_24 (c0 s0 w0 : Vec F S1x128 .f32) (x : Vec F S512x128 .f32) :
    k0_pay49 (k0_pay2 c0) (k0_pay3 s0) (k0_pay4 w0) x = head (k0_pay2 c0) (k0_pay3 s0) (k0_pay4 w0) x := rfl

theorem payQ_25 (c0 s0 w0 : Vec F S1x128 .f32) (x : Vec F S512x128 .f32) :
    k0_pay50 (k0_pay2 c0) (k0_pay3 s0) (k0_pay4 w0) x = head (k0_pay2 c0) (k0_pay3 s0) (k0_pay4 w0) x := rfl

theorem payQ_26 (c0 s0 w0 : Vec F S1x128 .f32) (x : Vec F S512x128 .f32) :
    k0_pay54 (k0_pay3 s0) (k0_pay51 (k0_pay4 w0) x) (k0_pay52 (k0_pay4 w0) x) (k0_pay53 (k0_pay2 c0)) = head (k0_pay2 c0) (k0_pay3 s0) (k0_pay4 w0) x := rfl

theorem payQ_27 (c0 s0 w0 : Vec F S1x128 .f32) (x : Vec F S512x128 .f32) :
    k0_pay55 (k0_pay2 c0) (k0_pay3 s0) (k0_pay4 w0) x = head (k0_pay2 c0) (k0_pay3 s0) (k0_pay4 w0) x := rfl

theorem payQ_28 (c0 s0 w0 : Vec F S1x128 .f32) (x : Vec F S512x128 .f32) :
    k0_pay58 (k0_pay2 c0) (k0_pay3 s0) (k0_pay56 (k0_pay4 w0) x) (k0_pay57 (k0_pay4 w0) x) = head (k0_pay2 c0) (k0_pay3 s0) (k0_pay4 w0) x := rfl

theorem payQ_29 (c0 s0 w0 : Vec F S1x128 .f32) (x : Vec F S512x128 .f32) :
    k0_pay59 (k0_pay2 c0) (k0_pay3 s0) (k0_pay4 w0) x = head (k0_pay2 c0) (k0_pay3 s0) (k0_pay4 w0) x := rfl

theorem payQ_30 (c0 s0 w0 : Vec F S1x128 .f32) (x : Vec F S512x128 .f32) :
    k0_pay61 (k0_pay2 c0) (k0_pay3 s0) (k0_pay4 w0) x (k0_pay60 x) = head (k0_pay2 c0) (k0_pay3 s0) (k0_pay4 w0) x := rfl

theorem payQ_31 (c0 s0 w0 : Vec F S1x128 .f32) (x : Vec F S512x128 .f32) :
    k0_pay62 (k0_pay2 c0) (k0_pay3 s0) (k0_pay4 w0) x = head (k0_pay2 c0) (k0_pay3 s0) (k0_pay4 w0) x := rfl

/-! ## The key heads -/

theorem payK_0 (c0 s0 w0 : Vec F S1x128 .f32) (x : Vec F S512x128 .f32) :
    k0_pay64 (k0_pay2 c0) (k0_pay3 s0) (k0_pay5 w0) x (k0_pay63 x) = head (k0_pay2 c0) (k0_pay3 s0) (k0_pay5 w0) x := rfl

theorem payK_1 (c0 s0 w0 : Vec F S1x128 .f32) (x : Vec F S512x128 .f32) :
    k0_pay65 (k0_pay2 c0) (k0_pay3 s0) (k0_pay5 w0) x = head (k0_pay2 c0) (k0_pay3 s0) (k0_pay5 w0) x := rfl

theorem payK_2 (c0 s0 w0 : Vec F S1x128 .f32) (x : Vec F S512x128 .f32) :
    k0_pay66 (k0_pay2 c0) (k0_pay3 s0) (k0_pay5 w0) x = head (k0_pay2 c0) (k0_pay3 s0) (k0_pay5 w0) x := rfl

theorem payK_3 (c0 s0 w0 : Vec F S1x128 .f32) (x : Vec F S512x128 .f32) :
    k0_pay70 (k0_pay68 (k0_pay2 c0) (k0_pay5 w0) x) (k0_pay69 (k0_pay3 s0) (k0_pay5 w0) x) = head (k0_pay2 c0) (k0_pay3 s0) (k0_pay5 w0) x := rfl

theorem payK_4 (c0 s0 w0 : Vec F S1x128 .f32) (x : Vec F S512x128 .f32) :
    k0_pay71 (k0_pay2 c0) (k0_pay3 s0) (k0_pay5 w0) x = head (k0_pay2 c0) (k0_pay3 s0) (k0_pay5 w0) x := rfl

theorem payK_5 (c0 s0 w0 : Vec F S1x128 .f32) (x : Vec F S512x128 .f32) :
    k0_pay76 (k0_pay2 c0) (k0_pay3 s0) (k0_pay72 (k0_pay5 w0) x) (k0_pay73 (k0_pay5 w0) x) (k0_pay74 (k0_pay5 w0) x) (k0_pay75 (F := F)) = head (k0_pay2 c0) (k0_pay3 s0) (k0_pay5 w0) x := rfl

theorem payK_6 (c0 s0 w0 : Vec F S1x128 .f32) (x : Vec F S512x128 .f32) :
    k0_pay77 (k0_pay2 c0) (k0_pay3 s0) (k0_pay5 w0) x = head (k0_pay2 c0) (k0_pay3 s0) (k0_pay5 w0) x := rfl

theorem payK_7 (c0 s0 w0 : Vec F S1x128 .f32) (x : Vec F S512x128 .f32) :
    k0_pay1 (k0_pay2 c0) (k0_pay3 s0) (k0_pay5 w0) (k0_pay78 x) = head (k0_pay2 c0) (k0_pay3 s0) (k0_pay5 w0) x := rfl

end Cert.KernelIdeal.Payloads

end
-- ==== Proof.BlockFn.lean ====
/-
  What one grid point leaves in its three output blocks, as functions of its input block.

  The query block `[512, 4096]` is filled by 32 stores, one per 128-column strip; strip `h` holds the head function of
  columns `128 h … 128 h + 127` of the input block. So the whole block is ONE function of the input block: at column
  `c` it is the rotary embedding of the row's group `c / 128`, read at lane `c % 128` (`blockQ`). The key block
  `[512, 1024]` is the same with 8 strips read 4096 columns further on (`blockK`), and the value block copies the
  last 1024 columns (`blockV`).
-/
import proofs.«135246_j76587856822535_1_alg».proof.Proof.Gen.KernelIdeal.Frame
import proofs.«135246_j76587856822535_1_alg».proof.Proof.HeadFn
import proofs.«135246_j76587856822535_1_alg».proof.Proof.Payloads

set_option maxRecDepth 16384

noncomputable section

namespace Cert.KernelIdeal.BlockFn

open Idealize.ShloMosaic Idealize.ShloMosaic.ValueIdx Cert.KernelIdeal Cert.KernelIdeal.Gen Cert.KernelIdeal.HeadFn

/-- The query block as one function of the input block and the three rows. -/
def blockQ (x0 : Vec Ideal S512x6144 .f32) (C S W : FVec Ideal S1x128 .f32) : Vec Ideal S512x4096 .f32 := fun y =>
  Cert.Rope.rope
    (fun k => x0 (ix2 (y 0 : Fin 512) (⟨128 * ((y 1).val / 128) + k.val, by
      have h : (y 1).val < 4096 := (y 1).isLt
      have := k.isLt; omega⟩ : Fin 6144)))
    (laneOf W) (laneOf C) (laneOf S) (⟨(y 1).val % 128, by omega⟩ : Fin 128)

/-- The key block: the same, its groups 4096 columns further on in the input block. -/
def blockK (x0 : Vec Ideal S512x6144 .f32) (C S W : FVec Ideal S1x128 .f32) : Vec Ideal S512x1024 .f32 := fun y =>
  Cert.Rope.rope
    (fun k => x0 (ix2 (y 0 : Fin 512) (⟨4096 + 128 * ((y 1).val / 128) + k.val, by
      have h : (y 1).val < 1024 := (y 1).isLt
      have := k.isLt; omega⟩ : Fin 6144)))
    (laneOf W) (laneOf C) (laneOf S) (⟨(y 1).val % 128, by omega⟩ : Fin 128)

/-- The value block: the input block's last 1024 columns. -/
def blockV (x0 : Vec Ideal S512x6144 .f32) : Vec Ideal S512x1024 .f32 := fun y =>
  x0 (ix2 (y 0 : Fin 512) (⟨5120 + (y 1).val, by have h : (y 1).val < 1024 := (y 1).isLt; omega⟩ : Fin 6144))

/-- The query block at row `p`, column `128 h + q`: head `h`'s embedding of that row at lane `q`. -/
theorem blockQ_at (x0 : Vec Ideal S512x6144 .f32) (C S W : FVec Ideal S1x128 .f32) (y : S512x4096.Idx)
    (p : Fin 512) (h : ℕ) (q : Fin 128) (hh : 128 * h + 128 ≤ 6144)
    (h0 : (y 0).val = p.val) (h1 : (y 1).val = 128 * h + q.val) :
    blockQ x0 C S W y = Cert.Rope.rope
      (fun k => x0 (ix2 p (⟨128 * h + k.val, by have := k.isLt; omega⟩ : Fin 6144))) (laneOf W) (laneOf C) (laneOf S) q := by
  unfold blockQ
  have hq := q.isLt
  have e1 : (y 1).val / 128 = h := by omega
  have e2 : (y 1).val % 128 = q.val := by omega
  have eq : (⟨(y 1).val % 128, by omega⟩ : Fin 128) = q := Fin.ext e2
  rw [eq]
  congr 1
  funext k
  refine congrArg x0 (funext fun a => Fin.ext ?_)
  match a with
  | ⟨0, _⟩ => exact h0
  | ⟨1, _⟩ => show 128 * ((y 1).val / 128) + k.val = 128 * h + k.val; rw [e1]

/-- The key block at row `p`, column `128 h + q`. -/
theorem blockK_at (x0 : Vec Ideal S512x6144 .f32) (C S W : FVec Ideal S1x128 .f32) (y : S512x1024.Idx)
    (p : Fin 512) (h : ℕ) (q : Fin 128) (hh : 4096 + 128 * h + 128 ≤ 6144)
    (h0 : (y 0).val = p.val) (h1 : (y 1).val = 128 * h + q.val) :
    blockK x0 C S W y = Cert.Rope.rope
      (fun k => x0 (ix2 p (⟨4096 + 128 * h + k.val, by have := k.isLt; omega⟩ : Fin 6144))) (laneOf W) (laneOf C) (laneOf S) q := by
  unfold blockK
  have hq := q.isLt
  have e1 : (y 1).val / 128 = h := by omega
  have e2 : (y 1).val % 128 = q.val := by omega
  have eq : (⟨(y 1).val % 128, by omega⟩ : Fin 128) = q := Fin.ext e2
  rw [eq]
  congr 1
  funext k
  refine congrArg x0 (funext fun a => Fin.ext ?_)
  match a with
  | ⟨0, _⟩ => exact h0
  | ⟨1, _⟩ => show 4096 + 128 * ((y 1).val / 128) + k.val = 4096 + 128 * h + k.val; rw [e1]

/-- Strip `h` of the query block: the head function of the group loaded at column `col = 128 h`, stored at the same
    column, agrees with `blockQ` on the strip. -/
theorem pieceQ (x0 : Vec Ideal S512x6144 .f32) (C S W : FVec Ideal S1x128 .f32) (h col : ℕ) (hc : col = 128 * h)
    (hh : 128 * h + 128 ≤ 4096)
    (inbI : ∀ a, (![0, col] : Fin 2 → ℕ) a + S512x128.size a ≤ S512x6144.size a)
    (inbO : ∀ a, (![0, col] : Fin 2 → ℕ) a + S512x128.size a ≤ S512x4096.size a) (j : S512x128.Idx) :
    head C S W (View.ld x0 (Rect.unit (s := S512x6144) ![0, col] S512x128.size inbI)) j
      = blockQ x0 C S W ((Rect.unit (s := S512x4096) ![0, col] S512x128.size inbO).emb j) := by
  subst hc
  obtain ⟨p, q, rfl⟩ : ∃ (p : Fin 512) (q : Fin 128), j = ix2 p q := ⟨j 0, j 1, eq_ix2 j⟩
  rw [head_apply]
  rw [blockQ_at x0 C S W _ p h q (by omega) (by show 0 + 1 * p.val = p.val; omega)
    (by show 128 * h + 1 * q.val = 128 * h + q.val; omega)]
  congr 1
  funext k
  show x0 ((Rect.unit (s := S512x6144) ![0, 128 * h] S512x128.size inbI).emb (ix2 p k)) = _
  refine congrArg x0 (funext fun a => Fin.ext ?_)
  match a with
  | ⟨0, _⟩ => show 0 + 1 * p.val = p.val; omega
  | ⟨1, _⟩ => show 128 * h + 1 * k.val = 128 * h + k.val; omega

/-- Strip `h` of the key block: loaded at column `4096 + 128 h`, stored at column `128 h`. -/
theorem pieceK (x0 : Vec Ideal S512x6144 .f32) (C S W : FVec Ideal S1x128 .f32) (h colI colO : ℕ)
    (hcI : colI = 4096 + 128 * h) (hcO : colO = 128 * h) (hh : 128 * h + 128 ≤ 1024)
    (inbI : ∀ a, (![0, colI] : Fin 2 → ℕ) a + S512x128.size a ≤ S512x6144.size a)
    (inbO : ∀ a, (![0, colO] : Fin 2 → ℕ) a + S512x128.size a ≤ S512x1024.size a) (j : S512x128.Idx) :
    head C S W (View.ld x0 (Rect.unit (s := S512x6144) ![0, colI] S512x128.size inbI)) j
      = blockK x0 C S W ((Rect.unit (s := S512x1024) ![0, colO] S512x128.size inbO).emb j) := by
  subst hcI hcO
  obtain ⟨p, q, rfl⟩ : ∃ (p : Fin 512) (q : Fin 128), j = ix2 p q := ⟨j 0, j 1, eq_ix2 j⟩
  rw [head_apply]
  rw [blockK_at x0 C S W _ p h q (by omega) (by show 0 + 1 * p.val = p.val; omega)
    (by show 128 * h + 1 * q.val = 128 * h + q.val; omega)]
  congr 1
  funext k
  show x0 ((Rect.unit (s := S512x6144) ![0, 4096 + 128 * h] S512x128.size inbI).emb (ix2 p k)) = _
  refine congrArg x0 (funext fun a => Fin.ext ?_)
  match a with
  | ⟨0, _⟩ => show 0 + 1 * p.val = p.val; omega
  | ⟨1, _⟩ => show 4096 + 128 * h + 1 * k.val = 4096 + 128 * h + k.val; omega

/-- What the body leaves in the query block is `blockQ` of the input block: each of its 32 stores is its strip of that
    one function, and the strips cover the block. -/
theorem out5_eq (x0 : Vec Ideal S512x6144 .f32) (x1 x2 x3 x4 : Vec Ideal S1x128 .f32) :
    out0_5 (F := Ideal) x0 x1 x2 x3 x4
      = blockQ x0 (k0_pay2 (View.ld x3 r0_0)) (k0_pay3 (View.ld x4 r0_0)) (k0_pay4 (View.ld x1 r0_0)) := by
  funext y
  unfold out0_5
  refine View.canon_apply_of_pieces (blockQ x0 (k0_pay2 (View.ld x3 r0_0)) (k0_pay3 (View.ld x4 r0_0)) (k0_pay4 (View.ld x1 r0_0)))
    _ ?_ y (cover0_5 _ _ _ _ _ _ _ _ _ _ _ _ _ _ _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro j
    exact (congrFun (Payloads.payQ_31 (View.ld x3 r0_0) (View.ld x4 r0_0) (View.ld x1 r0_0) (View.ld x0 r0_63)) j).trans
      (pieceQ x0 _ _ _ 31 3968 (by norm_num) (by norm_num) inb_S512x6144_S512x128_0_3968 inb_S512x4096_S512x128_0_3968 j)
  · intro j
    exact (congrFun (Payloads.payQ_30 (View.ld x3 r0_0) (View.ld x4 r0_0) (View.ld x1 r0_0) (View.ld x0 r0_61)) j).trans
      (pieceQ x0 _ _ _ 30 3840 (by norm_num) (by norm_num) inb_S512x6144_S512x128_0_3840 inb_S512x4096_S512x128_0_3840 j)
  · intro j
    exact (congrFun (Payloads.payQ_29 (View.ld x3 r0_0) (View.ld x4 r0_0) (View.ld x1 r0_0) (View.ld x0 r0_59)) j).trans
      (pieceQ x0 _ _ _ 29 3712 (by norm_num) (by norm_num) inb_S512x6144_S512x128_0_3712 inb_S512x4096_S512x128_0_3712 j)
  · intro j
    exact (congrFun (Payloads.payQ_28 (View.ld x3 r0_0) (View.ld x4 r0_0) (View.ld x1 r0_0) (View.ld x0 r0_57)) j).trans
      (pieceQ x0 _ _ _ 28 3584 (by norm_num) (by norm_num) inb_S512x6144_S512x128_0_3584 inb_S512x4096_S512x128_0_3584 j)
  · intro j
    exact (congrFun (Payloads.payQ_27 (View.ld x3 r0_0) (View.ld x4 r0_0) (View.ld x1 r0_0) (View.ld x0 r0_55)) j).trans
      (pieceQ x0 _ _ _ 27 3456 (by norm_num) (by norm_num) inb_S512x6144_S512x128_0_3456 inb_S512x4096_S512x128_0_3456 j)
  · intro j
    exact (congrFun (Payloads.payQ_26 (View.ld x3 r0_0) (View.ld x4 r0_0) (View.ld x1 r0_0) (View.ld x0 r0_53)) j).trans
      (pieceQ x0 _ _ _ 26 3328 (by norm_num) (by norm_num) inb_S512x6144_S512x128_0_3328 inb_S512x4096_S512x128_0_3328 j)
  · intro j
    exact (congrFun (Payloads.payQ_25 (View.ld x3 r0_0) (View.ld x4 r0_0) (View.ld x1 r0_0) (View.ld x0 r0_51)) j).trans
      (pieceQ x0 _ _ _ 25 3200 (by norm_num) (by norm_num) inb_S512x6144_S512x128_0_3200 inb_S512x4096_S512x128_0_3200 j)
  · intro j
    exact (congrFun (Payloads.payQ_24 (View.ld x3 r0_0) (View.ld x4 r0_0) (View.ld x1 r0_0) (View.ld x0 r0_49)) j).trans
      (pieceQ x0 _ _ _ 24 3072 (by norm_num) (by norm_num) inb_S512x6144_S512x128_0_3072 inb_S512x4096_S512x128_0_3072 j)
  · intro j
    exact (congrFun (Payloads.payQ_23 (View.ld x3 r0_0) (View.ld x4 r0_0) (View.ld x1 r0_0) (View.ld x0 r0_47)) j).trans
      (pieceQ x0 _ _ _ 23 2944 (by norm_num) (by norm_num) inb_S512x6144_S512x128_0_2944 inb_S512x4096_S512x128_0_2944 j)
  · intro j
    exact (congrFun (Payloads.payQ_22 (View.ld x3 r0_0) (View.ld x4 r0_0) (View.ld x1 r0_0) (View.ld x0 r0_45)) j).trans
      (pieceQ x0 _ _ _ 22 2816 (by norm_num) (by norm_num) inb_S512x6144_S512x128_0_2816 inb_S512x4096_S512x128_0_2816 j)
  · intro j
    exact (congrFun (Payloads.payQ_21 (View.ld x3 r0_0) (View.ld x4 r0_0) (View.ld x1 r0_0) (View.ld x0 r0_43)) j).trans
      (pieceQ x0 _ _ _ 21 2688 (by norm_num) (by norm_num) inb_S512x6144_S512x128_0_2688 inb_S512x4096_S512x128_0_2688 j)
  · intro j
    exact (congrFun (Payloads.payQ_20 (View.ld x3 r0_0) (View.ld x4 r0_0) (View.ld x1 r0_0) (View.ld x0 r0_41)) j).trans
      (pieceQ x0 _ _ _ 20 2560 (by norm_num) (by norm_num) inb_S512x6144_S512x128_0_2560 inb_S512x4096_S512x128_0_2560 j)
  · intro j
    exact (congrFun (Payloads.payQ_19 (View.ld x3 r0_0) (View.ld x4 r0_0) (View.ld x1 r0_0) (View.ld x0 r0_39)) j).trans
      (pieceQ x0 _ _ _ 19 2432 (by norm_num) (by norm_num) inb_S512x6144_S512x128_0_2432 inb_S512x4096_S512x128_0_2432 j)
  · intro j
    exact (congrFun (Payloads.payQ_18 (View.ld x3 r0_0) (View.ld x4 r0_0) (View.ld x1 r0_0) (View.ld x0 r0_37)) j).trans
      (pieceQ x0 _ _ _ 18 2304 (by norm_num) (by norm_num) inb_S512x6144_S512x128_0_2304 inb_S512x4096_S512x128_0_2304 j)
  · intro j
    exact (congrFun (Payloads.payQ_17 (View.ld x3 r0_0) (View.ld x4 r0_0) (View.ld x1 r0_0) (View.ld x0 r0_35)) j).trans
      (pieceQ x0 _ _ _ 17 2176 (by norm_num) (by norm_num) inb_S512x6144_S512x128_0_2176 inb_S512x4096_S512x128_0_2176 j)
  · intro j
    exact (congrFun (Payloads.payQ_16 (View.ld x3 r0_0) (View.ld x4 r0_0) (View.ld x1 r0_0) (View.ld x0 r0_33)) j).trans
      (pieceQ x0 _ _ _ 16 2048 (by norm_num) (by norm_num) inb_S512x6144_S512x128_0_2048 inb_S512x4096_S512x128_0_2048 j)
  · intro j
    exact (congrFun (Payloads.payQ_15 (View.ld x3 r0_0) (View.ld x4 r0_0) (View.ld x1 r0_0) (View.ld x0 r0_31)) j).trans
      (pieceQ x0 _ _ _ 15 1920 (by norm_num) (by norm_num) inb_S512x6144_S512x128_0_1920 inb_S512x4096_S512x128_0_1920 j)
  · intro j
    exact (congrFun (Payloads.payQ_14 (View.ld x3 r0_0) (View.ld x4 r0_0) (View.ld x1 r0_0) (View.ld x0 r0_29)) j).trans
      (pieceQ x0 _ _ _ 14 1792 (by norm_num) (by norm_num) inb_S512x6144_S512x128_0_1792 inb_S512x4096_S512x128_0_1792 j)
  · intro j
    exact (congrFun (Payloads.payQ_13 (View.ld x3 r0_0) (View.ld x4 r0_0) (View.ld x1 r0_0) (View.ld x0 r0_27)) j).trans
      (pieceQ x0 _ _ _ 13 1664 (by norm_num) (by norm_num) inb_S512x6144_S512x128_0_1664 inb_S512x4096_S512x128_0_1664 j)
  · intro j
    exact (congrFun (Payloads.payQ_12 (View.ld x3 r0_0) (View.ld x4 r0_0) (View.ld x1 r0_0) (View.ld x0 r0_25)) j).trans
      (pieceQ x0 _ _ _ 12 1536 (by norm_num) (by norm_num) inb_S512x6144_S512x128_0_1536 inb_S512x4096_S512x128_0_1536 j)
  · intro j
    exact (congrFun (Payloads.payQ_11 (View.ld x3 r0_0) (View.ld x4 r0_0) (View.ld x1 r0_0) (View.ld x0 r0_23)) j).trans
      (pieceQ x0 _ _ _ 11 1408 (by norm_num) (by norm_num) inb_S512x6144_S512x128_0_1408 inb_S512x4096_S512x128_0_1408 j)
  · intro j
    exact (congrFun (Payloads.payQ_10 (View.ld x3 r0_0) (View.ld x4 r0_0) (View.ld x1 r0_0) (View.ld x0 r0_21)) j).trans
      (pieceQ x0 _ _ _ 10 1280 (by norm_num) (by norm_num) inb_S512x6144_S512x128_0_1280 inb_S512x4096_S512x128_0_1280 j)
  · intro j
    exact (congrFun (Payloads.payQ_9 (View.ld x3 r0_0) (View.ld x4 r0_0) (View.ld x1 r0_0) (View.ld x0 r0_19)) j).trans
      (pieceQ x0 _ _ _ 9 1152 (by norm_num) (by norm_num) inb_S512x6144_S512x128_0_1152 inb_S512x4096_S512x128_0_1152 j)
  · intro j
    exact (congrFun (Payloads.payQ_8 (View.ld x3 r0_0) (View.ld x4 r0_0) (View.ld x1 r0_0) (View.ld x0 r0_17)) j).trans
      (pieceQ x0 _ _ _ 8 1024 (by norm_num) (by norm_num) inb_S512x6144_S512x128_0_1024 inb_S512x4096_S512x128_0_1024 j)
  · intro j
    exact (congrFun (Payloads.payQ_7 (View.ld x3 r0_0) (View.ld x4 r0_0) (View.ld x1 r0_0) (View.ld x0 r0_15)) j).trans
      (pieceQ x0 _ _ _ 7 896 (by norm_num) (by norm_num) inb_S512x6144_S512x128_0_896 inb_S512x4096_S512x128_0_896 j)
  · intro j
    exact (congrFun (Payloads.payQ_6 (View.ld x3 r0_0) (View.ld x4 r0_0) (View.ld x1 r0_0) (View.ld x0 r0_13)) j).trans
      (pieceQ x0 _ _ _ 6 768 (by norm_num) (by norm_num) inb_S512x6144_S512x128_0_768 inb_S512x4096_S512x128_0_768 j)
  · intro j
    exact (congrFun (Payloads.payQ_5 (View.ld x3 r0_0) (View.ld x4 r0_0) (View.ld x1 r0_0) (View.ld x0 r0_11)) j).trans
      (pieceQ x0 _ _ _ 5 640 (by norm_num) (by norm_num) inb_S512x6144_S512x128_0_640 inb_S512x4096_S512x128_0_640 j)
  · intro j
    exact (congrFun (Payloads.payQ_4 (View.ld x3 r0_0) (View.ld x4 r0_0) (View.ld x1 r0_0) (View.ld x0 r0_9)) j).trans
      (pieceQ x0 _ _ _ 4 512 (by norm_num) (by norm_num) inb_S512x6144_S512x128_0_512 inb_S512x4096_S512x128_0_512 j)
  · intro j
    exact (congrFun (Payloads.payQ_3 (View.ld x3 r0_0) (View.ld x4 r0_0) (View.ld x1 r0_0) (View.ld x0 r0_7)) j).trans
      (pieceQ x0 _ _ _ 3 384 (by norm_num) (by norm_num) inb_S512x6144_S512x128_0_384 inb_S512x4096_S512x128_0_384 j)
  · intro j
    exact (congrFun (Payloads.payQ_2 (View.ld x3 r0_0) (View.ld x4 r0_0) (View.ld x1 r0_0) (View.ld x0 r0_5)) j).trans
      (pieceQ x0 _ _ _ 2 256 (by norm_num) (by norm_num) inb_S512x6144_S512x128_0_256 inb_S512x4096_S512x128_0_256 j)
  · intro j
    exact (congrFun (Payloads.payQ_1 (View.ld x3 r0_0) (View.ld x4 r0_0) (View.ld x1 r0_0) (View.ld x0 r0_3)) j).trans
      (pieceQ x0 _ _ _ 1 128 (by norm_num) (by norm_num) inb_S512x6144_S512x128_0_128 inb_S512x4096_S512x128_0_128 j)
  · intro j
    exact (congrFun (Payloads.payQ_0 (View.ld x3 r0_0) (View.ld x4 r0_0) (View.ld x1 r0_0) (View.ld x0 r0_1)) j).trans
      (pieceQ x0 _ _ _ 0 0 (by norm_num) (by norm_num) inb_S512x6144_S512x128_0_0 inb_S512x4096_S512x128_0_0 j)

/-- What the body leaves in the key block is `blockK` of the input block. -/
theorem out6_eq (x0 : Vec Ideal S512x6144 .f32) (x1 x2 x3 x4 : Vec Ideal S1x128 .f32) :
    out0_6 (F := Ideal) x0 x1 x2 x3 x4
      = blockK x0 (k0_pay2 (View.ld x3 r0_0)) (k0_pay3 (View.ld x4 r0_0)) (k0_pay5 (View.ld x2 r0_0)) := by
  funext y
  unfold out0_6
  refine View.canon_apply_of_pieces (blockK x0 (k0_pay2 (View.ld x3 r0_0)) (k0_pay3 (View.ld x4 r0_0)) (k0_pay5 (View.ld x2 r0_0)))
    _ ?_ y (cover0_6 _ _ _ _ _ _ _ _ y)
  intro pc hpc
  simp only [List.mem_cons, List.not_mem_nil, or_false] at hpc
  rcases hpc with rfl | rfl | rfl | rfl | rfl | rfl | rfl | rfl
  · intro j
    exact (congrFun (Payloads.payK_7 (View.ld x3 r0_0) (View.ld x4 r0_0) (View.ld x2 r0_0) (View.ld x0 r0_79)) j).trans
      (pieceK x0 _ _ _ 7 4992 896 (by norm_num) (by norm_num) (by norm_num) inb_S512x6144_S512x128_0_4992 inb_S512x1024_S512x128_0_896 j)
  · intro j
    exact (congrFun (Payloads.payK_6 (View.ld x3 r0_0) (View.ld x4 r0_0) (View.ld x2 r0_0) (View.ld x0 r0_77)) j).trans
      (pieceK x0 _ _ _ 6 4864 768 (by norm_num) (by norm_num) (by norm_num) inb_S512x6144_S512x128_0_4864 inb_S512x1024_S512x128_0_768 j)
  · intro j
    exact (congrFun (Payloads.payK_5 (View.ld x3 r0_0) (View.ld x4 r0_0) (View.ld x2 r0_0) (View.ld x0 r0_75)) j).trans
      (pieceK x0 _ _ _ 5 4736 640 (by norm_num) (by norm_num) (by norm_num) inb_S512x6144_S512x128_0_4736 inb_S512x1024_S512x128_0_640 j)
  · intro j
    exact (congrFun (Payloads.payK_4 (View.ld x3 r0_0) (View.ld x4 r0_0) (View.ld x2 r0_0) (View.ld x0 r0_73)) j).trans
      (pieceK x0 _ _ _ 4 4608 512 (by norm_num) (by norm_num) (by norm_num) inb_S512x6144_S512x128_0_4608 inb_S512x1024_S512x128_0_512 j)
  · intro j
    exact (congrFun (Payloads.payK_3 (View.ld x3 r0_0) (View.ld x4 r0_0) (View.ld x2 r0_0) (View.ld x0 r0_71)) j).trans
      (pieceK x0 _ _ _ 3 4480 384 (by norm_num) (by norm_num) (by norm_num) inb_S512x6144_S512x128_0_4480 inb_S512x1024_S512x128_0_384 j)
  · intro j
    exact (congrFun (Payloads.payK_2 (View.ld x3 r0_0) (View.ld x4 r0_0) (View.ld x2 r0_0) (View.ld x0 r0_69)) j).trans
      (pieceK x0 _ _ _ 2 4352 256 (by norm_num) (by norm_num) (by norm_num) inb_S512x6144_S512x128_0_4352 inb_S512x1024_S512x128_0_256 j)
  · intro j
    exact (congrFun (Payloads.payK_1 (View.ld x3 r0_0) (View.ld x4 r0_0) (View.ld x2 r0_0) (View.ld x0 r0_67)) j).trans
      (pieceK x0 _ _ _ 1 4224 128 (by norm_num) (by norm_num) (by norm_num) inb_S512x6144_S512x128_0_4224 inb_S512x1024_S512x128_0_128 j)
  · intro j
    exact (congrFun (Payloads.payK_0 (View.ld x3 r0_0) (View.ld x4 r0_0) (View.ld x2 r0_0) (View.ld x0 r0_65)) j).trans
      (pieceK x0 _ _ _ 0 4096 0 (by norm_num) (by norm_num) (by norm_num) inb_S512x6144_S512x128_0_4096 inb_S512x1024_S512x128_0_0 j)

theorem hz : (![0, 0] : Fin 2 → Nat) = fun _ => 0 := funext fun a => by fin_cases a <;> rfl

/-- What the body leaves in the value block: its one store is the load of the last 1024 columns. -/
theorem out7_eq (x0 : Vec Ideal S512x6144 .f32) (x1 x2 x3 x4 : Vec Ideal S1x128 .f32) :
    out0_7 (F := Ideal) x0 x1 x2 x3 x4 = blockV x0 := by
  unfold out0_7
  rw [View.canon_unit_zero hz]
  funext y
  show x0 (r0_81.emb y) = _
  unfold blockV
  refine congrArg x0 (funext fun a => Fin.ext ?_)
  match a with
  | ⟨0, _⟩ => show 0 + 1 * (y 0).val = (y 0).val; omega
  | ⟨1, _⟩ => show 5120 + 1 * (y 1).val = 5120 + (y 1).val; omega

/-- A row read through the body's identity cast and its whole-buffer load is the row itself. -/
theorem row_id (x : Vec Ideal S1x128 .f32) : shapeCast S1x128 (View.ld x r0_0) shapeCasts_S1x128_S1x128 = x :=
  (shapeCast_self (s := S1x128) (View.ld x r0_0) shapeCasts_S1x128_S1x128).trans
    (View.ld_unit_zero (S := S1x128) hz inb_S1x128_S1x128_0_0 x)

end Cert.KernelIdeal.BlockFn

end
-- ==== Proof.Arrays.lean ====
/-
  From blocks to arrays. Grid point `t` works on rows `512 t … 512 t + 511`: its input block is those rows of the fused
  array, the four rows (two weights, cosine, sine) are whole small arrays seen unchanged at every point, and its three
  output blocks are those rows of the three output arrays. What a point writes back is therefore its block of ONE
  function of the whole arrays (`arrQ`, `arrK`, `arrV`), the 16 blocks cover each output array, and so each output
  array ends holding that function.
-/
import proofs.«135246_j76587856822535_1_alg».proof.Proof.BlockFn
import Idealize.ShloMosaic.Lib.Pipeline.Value

set_option maxRecDepth 16384

noncomputable section

namespace Cert.KernelIdeal.Arrays

open Idealize.ShloMosaic Idealize.ShloMosaic.ValueIdx Idealize.ShloMosaic.TcCoe Idealize.SL.Sem
open Cert.KernelIdeal Cert.KernelIdeal.Gen Cert.KernelIdeal.HeadFn Cert.KernelIdeal.BlockFn
open Idealize.ShloMosaic.Pipeline (Dat Cfg Window)

/-- The query array `[8192, 4096]` as one function of the fused array and the three rows. -/
def arrQ (X : S8192x6144.Idx → EReal) (C S W : S1x128.Idx → EReal) : S8192x4096.Idx → EReal := fun i =>
  Cert.Rope.rope
    (fun k => X (ix2 (i 0 : Fin 8192) (⟨128 * ((i 1).val / 128) + k.val, by
      have h : (i 1).val < 4096 := (i 1).isLt
      have := k.isLt; omega⟩ : Fin 6144)))
    (laneOf W) (laneOf C) (laneOf S) (⟨(i 1).val % 128, by omega⟩ : Fin 128)

/-- The key array `[8192, 1024]`. -/
def arrK (X : S8192x6144.Idx → EReal) (C S W : S1x128.Idx → EReal) : S8192x1024.Idx → EReal := fun i =>
  Cert.Rope.rope
    (fun k => X (ix2 (i 0 : Fin 8192) (⟨4096 + 128 * ((i 1).val / 128) + k.val, by
      have h : (i 1).val < 1024 := (i 1).isLt
      have := k.isLt; omega⟩ : Fin 6144)))
    (laneOf W) (laneOf C) (laneOf S) (⟨(i 1).val % 128, by omega⟩ : Fin 128)

/-- The value array `[8192, 1024]`. -/
def arrV (X : S8192x6144.Idx → EReal) : S8192x1024.Idx → EReal := fun i =>
  X (ix2 (i 0 : Fin 8192) (⟨5120 + (i 1).val, by have h : (i 1).val < 1024 := (i 1).isLt; omega⟩ : Fin 6144))

/-- The query array at row `R`, column `128 h + q`. -/
theorem arrQ_at (X : S8192x6144.Idx → EReal) (C S W : S1x128.Idx → EReal) (i : S8192x4096.Idx)
    (R : Fin 8192) (h : ℕ) (q : Fin 128) (hh : 128 * h + 128 ≤ 6144)
    (h0 : (i 0).val = R.val) (h1 : (i 1).val = 128 * h + q.val) :
    arrQ X C S W i = Cert.Rope.rope
      (fun k => X (ix2 R (⟨128 * h + k.val, by have := k.isLt; omega⟩ : Fin 6144))) (laneOf W) (laneOf C) (laneOf S) q := by
  unfold arrQ
  have hq := q.isLt
  have e1 : (i 1).val / 128 = h := by omega
  have e2 : (i 1).val % 128 = q.val := by omega
  have eq : (⟨(i 1).val % 128, by omega⟩ : Fin 128) = q := Fin.ext e2
  rw [eq]
  congr 1
  funext k
  refine congrArg X (funext fun a => Fin.ext ?_)
  match a with
  | ⟨0, _⟩ => exact h0
  | ⟨1, _⟩ => show 128 * ((i 1).val / 128) + k.val = 128 * h + k.val; rw [e1]

/-- The key array at row `R`, column `128 h + q`. -/
theorem arrK_at (X : S8192x6144.Idx → EReal) (C S W : S1x128.Idx → EReal) (i : S8192x1024.Idx)
    (R : Fin 8192) (h : ℕ) (q : Fin 128) (hh : 4096 + 128 * h + 128 ≤ 6144)
    (h0 : (i 0).val = R.val) (h1 : (i 1).val = 128 * h + q.val) :
    arrK X C S W i = Cert.Rope.rope
      (fun k => X (ix2 R (⟨4096 + 128 * h + k.val, by have := k.isLt; omega⟩ : Fin 6144))) (laneOf W) (laneOf C) (laneOf S) q := by
  unfold arrK
  have hq := q.isLt
  have e1 : (i 1).val / 128 = h := by omega
  have e2 : (i 1).val % 128 = q.val := by omega
  have eq : (⟨(i 1).val % 128, by omega⟩ : Fin 128) = q := Fin.ext e2
  rw [eq]
  congr 1
  funext k
  refine congrArg X (funext fun a => Fin.ext ?_)
  match a with
  | ⟨0, _⟩ => exact h0
  | ⟨1, _⟩ => show 4096 + 128 * ((i 1).val / 128) + k.val = 4096 + 128 * h + k.val; rw [e1]

variable (m : (ℓ : Loc nD τ sig) → Buf (Elt Ideal) ℓ) (ρ : Dev nD → PrngReg)

/-- The printed index maps over the 16 grid points: the blocked windows move down one block of rows per point and
    stay at column block 0; the four rows stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ t.val < 16 :=
  (by decide +kernel : ∀ t : Fin grid0.N, _)

/-- A row window's block at any point is the whole row array. -/
theorem iblk1 (c : Dev nD) (t : Fin cfg0.N) : (iblk m c 1 t : S1x128.Idx → EReal) = V m c main_v0 := by
  obtain ⟨-, -, e0, e1, -⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega
theorem iblk2 (c : Dev nD) (t : Fin cfg0.N) : (iblk m c 2 t : S1x128.Idx → EReal) = V m c main_v1 := by
  obtain ⟨-, -, -, -, e0, e1, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem iblk3 (c : Dev nD) (t : Fin cfg0.N) : (iblk m c 3 t : S1x128.Idx → EReal) = V m c main_v2 := by
  obtain ⟨-, -, -, -, -, -, e0, e1, -⟩ := idx_facts t
  funext y
  show V m c main_v2 (((cfg0.win 3).blk t).view.emb y) = V m c main_v2 y
  refine congrArg (V m c main_v2) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem iblk4 (c : Dev nD) (t : Fin cfg0.N) : (iblk m c 4 t : S1x128.Idx → EReal) = V m c main_v3 := by
  obtain ⟨-, -, -, -, -, -, -, -, e0, e1, -⟩ := idx_facts t
  funext y
  show V m c main_v3 (((cfg0.win 4).blk t).view.emb y) = V m c main_v3 y
  refine congrArg (V m c main_v3) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The input block at point `t`, row `p`, column `q`: the fused array at row `512 t + p`, column `q`. -/
theorem iblk0_apply (c : Dev nD) (t : Fin cfg0.N) (y : S512x6144.Idx) (R : Fin 8192) (hR : R.val = 512 * t.val + (y 0).val) :
    (iblk m c 0 t : S512x6144.Idx → EReal) y = V m c main_arg0 (ix2 R (y 1 : Fin 6144)) := by
  obtain ⟨e0, e1, -⟩ := idx_facts t
  show V m c main_arg0 (((cfg0.win 0).blk t).view.emb y) = _
  refine congrArg (V m c main_arg0) (funext fun a => Fin.ext ?_)
  match a with
  | ⟨0, _⟩ => show win0_0.index t (0 : Fin 2) * 512 + 1 * (y 0).val = R.val; omega
  | ⟨1, _⟩ => show win0_0.index t (1 : Fin 2) * 6144 + 1 * (y 1).val = (y 1).val; omega

/-! ## What a point writes back -/

/-- The three rows as the body sees them at any point: the whole row arrays. -/
theorem rowC (c : Dev nD) (t : Fin cfg0.N) : k0_pay2 (View.ld (iblk m c 3 t) r0_0) = V m c main_v2 :=
  (row_id (iblk m c 3 t)).trans (iblk3 m c t)
theorem rowS (c : Dev nD) (t : Fin cfg0.N) : k0_pay3 (View.ld (iblk m c 4 t) r0_0) = V m c main_v3 :=
  (row_id (iblk m c 4 t)).trans (iblk4 m c t)
theorem rowWq (c : Dev nD) (t : Fin cfg0.N) : k0_pay4 (View.ld (iblk m c 1 t) r0_0) = V m c main_v0 :=
  (row_id (iblk m c 1 t)).trans (iblk1 m c t)
theorem rowWk (c : Dev nD) (t : Fin cfg0.N) : k0_pay5 (View.ld (iblk m c 2 t) r0_0) = V m c main_v1 :=
  (row_id (iblk m c 2 t)).trans (iblk2 m c t)

/-- Point `t` writes back block `t` of the query array's function. -/
theorem flushedQ (c : Dev nD) (t : Fin cfg0.N) :
    (dats m 0 c).flushed 5 t = ((cfg0.win 5).blk t).view.read (Elt Ideal)
      (arrQ (V m c main_arg0) (V m c main_v2) (V m c main_v3) (V m c main_v0)) := by
  show (cfg0.win 5).cut (grid0.coords t) ((dats m 0 c).after 5 t) = _
  rw [after0_5, out5_eq (iblk m c 0 t) (iblk m c 1 t) (iblk m c 2 t) (iblk m c 3 t) (iblk m c 4 t)]
  have rows : blockQ (iblk m c 0 t) (k0_pay2 (View.ld (iblk m c 3 t) r0_0)) (k0_pay3 (View.ld (iblk m c 4 t) r0_0))
      (k0_pay4 (View.ld (iblk m c 1 t) r0_0)) = blockQ (iblk m c 0 t) (V m c main_v2) (V m c main_v3) (V m c main_v0) := by
    rw [rowC m c t, rowS m c t, rowWq m c t]
  obtain ⟨-, -, -, -, -, -, -, -, -, -, e0, e1, -, -, -, -, ht⟩ := idx_facts t
  funext j
  refine (congrFun rows j).trans ?_
  show blockQ (iblk m c 0 t) (V m c main_v2) (V m c main_v3) (V m c main_v0) j
    = arrQ (V m c main_arg0) (V m c main_v2) (V m c main_v3) (V m c main_v0) (((cfg0.win 5).blk t).view.emb j)
  have hj0 : (j 0).val < 512 := (j 0).isLt
  have hj1 : (j 1).val < 4096 := (j 1).isLt
  rw [blockQ_at (iblk m c 0 t) _ _ _ j (j 0 : Fin 512) ((j 1).val / 128) (⟨(j 1).val % 128, by omega⟩ : Fin 128) (by omega) rfl
      (by show (j 1).val = 128 * ((j 1).val / 128) + (j 1).val % 128; omega),
    arrQ_at (V m c main_arg0) _ _ _ _ (⟨512 * t.val + (j 0).val, by omega⟩ : Fin 8192) ((j 1).val / 128)
      (⟨(j 1).val % 128, by omega⟩ : Fin 128) (by omega)
      (by show win0_5.index t (0 : Fin 2) * 512 + 1 * (j 0).val = 512 * t.val + (j 0).val; omega)
      (by show win0_5.index t (1 : Fin 2) * 4096 + 1 * (j 1).val = 128 * ((j 1).val / 128) + (j 1).val % 128; omega)]
  congr 1
  funext k
  exact iblk0_apply m c t _ _ rfl

/-- Point `t` writes back block `t` of the key array's function. -/
theorem flushedK (c : Dev nD) (t : Fin cfg0.N) :
    (dats m 0 c).flushed 6 t = ((cfg0.win 6).blk t).view.read (Elt Ideal)
      (arrK (V m c main_arg0) (V m c main_v2) (V m c main_v3) (V m c main_v1)) := by
  show (cfg0.win 6).cut (grid0.coords t) ((dats m 0 c).after 6 t) = _
  rw [after0_6, out6_eq (iblk m c 0 t) (iblk m c 1 t) (iblk m c 2 t) (iblk m c 3 t) (iblk m c 4 t)]
  have rows : blockK (iblk m c 0 t) (k0_pay2 (View.ld (iblk m c 3 t) r0_0)) (k0_pay3 (View.ld (iblk m c 4 t) r0_0))
      (k0_pay5 (View.ld (iblk m c 2 t) r0_0)) = blockK (iblk m c 0 t) (V m c main_v2) (V m c main_v3) (V m c main_v1) := by
    rw [rowC m c t, rowS m c t, rowWk m c t]
  obtain ⟨-, -, -, -, -, -, -, -, -, -, -, -, e0, e1, -, -, ht⟩ := idx_facts t
  funext j
  refine (congrFun rows j).trans ?_
  show blockK (iblk m c 0 t) (V m c main_v2) (V m c main_v3) (V m c main_v1) j
    = arrK (V m c main_arg0) (V m c main_v2) (V m c main_v3) (V m c main_v1) (((cfg0.win 6).blk t).view.emb j)
  have hj0 : (j 0).val < 512 := (j 0).isLt
  have hj1 : (j 1).val < 1024 := (j 1).isLt
  rw [blockK_at (iblk m c 0 t) _ _ _ j (j 0 : Fin 512) ((j 1).val / 128) (⟨(j 1).val % 128, by omega⟩ : Fin 128) (by omega) rfl
      (by show (j 1).val = 128 * ((j 1).val / 128) + (j 1).val % 128; omega),
    arrK_at (V m c main_arg0) _ _ _ _ (⟨512 * t.val + (j 0).val, by omega⟩ : Fin 8192) ((j 1).val / 128)
      (⟨(j 1).val % 128, by omega⟩ : Fin 128) (by omega)
      (by show win0_6.index t (0 : Fin 2) * 512 + 1 * (j 0).val = 512 * t.val + (j 0).val; omega)
      (by show win0_6.index t (1 : Fin 2) * 1024 + 1 * (j 1).val = 128 * ((j 1).val / 128) + (j 1).val % 128; omega)]
  congr 1
  funext k
  exact iblk0_apply m c t _ _ rfl

/-- Point `t` writes back block `t` of the value array's function. -/
theorem flushedV (c : Dev nD) (t : Fin cfg0.N) :
    (dats m 0 c).flushed 7 t = ((cfg0.win 7).blk t).view.read (Elt Ideal) (arrV (V m c main_arg0)) := by
  show (cfg0.win 7).cut (grid0.coords t) ((dats m 0 c).after 7 t) = _
  rw [after0_7, out7_eq (iblk m c 0 t) (iblk m c 1 t) (iblk m c 2 t) (iblk m c 3 t) (iblk m c 4 t)]
  obtain ⟨-, -, -, -, -, -, -, -, -, -, -, -, -, -, e0, e1, ht⟩ := idx_facts t
  funext j
  show blockV (iblk m c 0 t) j = arrV (V m c main_arg0) (((cfg0.win 7).blk t).view.emb j)
  have hj0 : (j 0).val < 512 := (j 0).isLt
  have hj1 : (j 1).val < 1024 := (j 1).isLt
  unfold blockV arrV
  rw [iblk0_apply m c t _ (⟨512 * t.val + (j 0).val, by omega⟩ : Fin 8192) rfl]
  refine congrArg (V m c main_arg0) (funext fun a => Fin.ext ?_)
  match a with
  | ⟨0, _⟩ => show 512 * t.val + (j 0).val = win0_7.index t (0 : Fin 2) * 512 + 1 * (j 0).val; omega
  | ⟨1, _⟩ => show 5120 + (j 1).val = 5120 + (win0_7.index t (1 : Fin 2) * 1024 + 1 * (j 1).val); omega

/-! ## The blocks cover the arrays -/

theorem mem_blkQ (t : Fin cfg0.N) (i : S8192x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v4_0).slice (win0_5.rect t)).set ↔ _
  rw [View.set_slice_whole, Rect.mem_set_unit]
  exact Iff.rfl
theorem mem_blkK (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v4_1).slice (win0_6.rect t)).set ↔ _
  rw [View.set_slice_whole, Rect.mem_set_unit]
  exact Iff.rfl
theorem mem_blkV (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v4_2).slice (win0_7.rect t)).set ↔ _
  rw [View.set_slice_whole, Rect.mem_set_unit]
  exact Iff.rfl

/-- Row `r` of an output array is in the block of point `r / 512`. -/
theorem coverQ (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : (i 0).val / 512 < grid0.N := by rw [N_0]; omega
  obtain ⟨-, -, -, -, -, -, -, -, -, -, e0, e1, -⟩ := idx_facts (⟨(i 0).val / 512, hN⟩ : Fin cfg0.N)
  refine ⟨⟨(i 0).val / 512, hN⟩, flush0_5 _, ?_⟩
  rw [mem_blkQ]
  intro a
  match a with
  | ⟨0, _⟩ =>
    show win0_5.index ⟨(i 0).val / 512, hN⟩ (0 : Fin 2) * 512 ≤ (i 0).val
      ∧ (i 0).val < win0_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hN⟩ (1 : Fin 2) * 4096 ≤ (i 1).val
      ∧ (i 1).val < win0_5.index ⟨(i 0).val / 512, hN⟩ (1 : Fin 2) * 4096 + 4096
    rw [e1]; omega
theorem coverK (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 512 < grid0.N := by rw [N_0]; omega
  obtain ⟨-, -, -, -, -, -, -, -, -, -, -, -, e0, e1, -⟩ := idx_facts (⟨(i 0).val / 512, hN⟩ : Fin cfg0.N)
  refine ⟨⟨(i 0).val / 512, hN⟩, flush0_6 _, ?_⟩
  rw [mem_blkK]
  intro a
  match a with
  | ⟨0, _⟩ =>
    show win0_6.index ⟨(i 0).val / 512, hN⟩ (0 : Fin 2) * 512 ≤ (i 0).val
      ∧ (i 0).val < win0_6.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hN⟩ (1 : Fin 2) * 1024 ≤ (i 1).val
      ∧ (i 1).val < win0_6.index ⟨(i 0).val / 512, hN⟩ (1 : Fin 2) * 1024 + 1024
    rw [e1]; omega
theorem coverV (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < grid0.N := by rw [N_0]; omega
  obtain ⟨-, -, -, -, -, -, -, -, -, -, -, -, -, -, e0, e1, -⟩ := idx_facts (⟨(i 0).val / 512, hN⟩ : Fin cfg0.N)
  refine ⟨⟨(i 0).val / 512, hN⟩, flush0_7 _, ?_⟩
  rw [mem_blkV]
  intro a
  match a with
  | ⟨0, _⟩ =>
    show win0_7.index ⟨(i 0).val / 512, hN⟩ (0 : Fin 2) * 512 ≤ (i 0).val
      ∧ (i 0).val < win0_7.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hN⟩ (1 : Fin 2) * 1024 ≤ (i 1).val
      ∧ (i 1).val < win0_7.index ⟨(i 0).val / 512, hN⟩ (1 : Fin 2) * 1024 + 1024
    rw [e1]; omega

/-! ## The three output arrays after the region -/

theorem finalQ (c : Dev nD) : (dats m 0 c).arrAt 5 cfg0.N
    = arrQ (V m c main_arg0) (V m c main_v2) (V m c main_v3) (V m c main_v0) :=
  (dats m 0 c).arrAt_eq_of_cover 5 _ (fun t _ => flushedQ m c t) coverQ
theorem finalK (c : Dev nD) : (dats m 0 c).arrAt 6 cfg0.N
    = arrK (V m c main_arg0) (V m c main_v2) (V m c main_v3) (V m c main_v1) :=
  (dats m 0 c).arrAt_eq_of_cover 6 _ (fun t _ => flushedK m c t) coverK
theorem finalV (c : Dev nD) : (dats m 0 c).arrAt 7 cfg0.N = arrV (V m c main_arg0) :=
  (dats m 0 c).arrAt_eq_of_cover 7 _ (fun t _ => flushedV m c t) coverV

end Cert.KernelIdeal.Arrays

end
-- ==== Proof.Results.lean ====
/-
  The kernel's three results as functions of its five arguments.

  Before the region the host reshapes the two weight vectors `[128]` and the two tables `[1, 1, 1, 128]` to rows
  `[1, 128]`: a row's lane `k` is the vector's (the table's) entry `k`. After the region it reshapes the query array
  `[8192, 4096]` to `[1, 8192, 32, 128]` and the key array `[8192, 1024]` to `[1, 8192, 8, 128]`: entry
  `(0, r, h, d)` is the array's entry `(r, 128 h + d)`, which is head `h` of token `r` at lane `d`. The value array is
  returned as the region left it.
-/
import proofs.«135246_j76587856822535_1_alg».proof.Proof.Arrays
import Idealize.ShloMosaic.Lib.StableHlo.Run

set_option maxRecDepth 16384

noncomputable section

namespace Cert.KernelIdeal.Results

open Idealize.ShloMosaic Idealize.ShloMosaic.ValueIdx Idealize.ShloMosaic.TcCoe Idealize.SL.Sem Idealize.ShloMosaic.StableHlo
open Cert.KernelIdeal Cert.KernelIdeal.Gen Cert.KernelIdeal.HeadFn Cert.KernelIdeal.BlockFn Cert.KernelIdeal.Arrays
open Idealize.ShloMosaic.Pipeline (Dat Cfg Window)

/-! ## The reshapes read at an index -/

/-- A `[128]` vector reshaped to a row: lane `k` is entry `k`. -/
theorem cast_row1 (w : (⟨1, ![128]⟩ : Shape).Idx → EReal) (h : (⟨1, ![128]⟩ : Shape).ShapeCasts ⟨2, ![1, 128]⟩) (k : Fin 128) :
    shapeCast ⟨2, ![1, 128]⟩ w h (ix2 (0 : Fin 1) k) = w (ix1 k) :=
  shapeCast_apply w h _ _ (by
    rw [Shape.rowMajor_val_one, Shape.rowMajor_val_two]
    show k.val = 0 * 128 + k.val; omega)

/-- A `[1, 1, 1, 128]` table reshaped to a row: lane `k` is entry `(0, 0, 0, k)`. -/
theorem cast_row4 (c : (⟨4, ![1, 1, 1, 128]⟩ : Shape).Idx → EReal)
    (h : (⟨4, ![1, 1, 1, 128]⟩ : Shape).ShapeCasts ⟨2, ![1, 128]⟩) (k : Fin 128) :
    shapeCast ⟨2, ![1, 128]⟩ c h (ix2 (0 : Fin 1) k) = c (ix4 (0 : Fin 1) (0 : Fin 1) (0 : Fin 1) k) :=
  shapeCast_apply c h _ _ (by
    rw [Shape.rowMajor_val_four, Shape.rowMajor_val_two]
    show ((0 * 1 + 0) * 1 + 0) * 128 + k.val = 0 * 128 + k.val; omega)

/-- The query array reshaped by heads: entry `(u, r, h, d)` is the array at `(r, 128 h + d)`. -/
theorem cast_q (A : (⟨2, ![8192, 4096]⟩ : Shape).Idx → EReal)
    (h : (⟨2, ![8192, 4096]⟩ : Shape).ShapeCasts ⟨4, ![1, 8192, 32, 128]⟩) (u : Fin 1) (r : Fin 8192) (hd : Fin 32) (d : Fin 128) :
    shapeCast ⟨4, ![1, 8192, 32, 128]⟩ A h (ix4 u r hd d)
      = A (ix2 r (⟨128 * hd.val + d.val, by have := hd.isLt; have := d.isLt; omega⟩ : Fin 4096)) :=
  shapeCast_apply A h _ _ (by
    rw [Shape.rowMajor_val_two, Shape.rowMajor_val_four]
    show r.val * 4096 + (128 * hd.val + d.val) = ((u.val * 8192 + r.val) * 32 + hd.val) * 128 + d.val
    have := u.isLt; omega)

/-- The key array reshaped by heads. -/
theorem cast_k (A : (⟨2, ![8192, 1024]⟩ : Shape).Idx → EReal)
    (h : (⟨2, ![8192, 1024]⟩ : Shape).ShapeCasts ⟨4, ![1, 8192, 8, 128]⟩) (u : Fin 1) (r : Fin 8192) (hd : Fin 8) (d : Fin 128) :
    shapeCast ⟨4, ![1, 8192, 8, 128]⟩ A h (ix4 u r hd d)
      = A (ix2 r (⟨128 * hd.val + d.val, by have := hd.isLt; have := d.isLt; omega⟩ : Fin 1024)) :=
  shapeCast_apply A h _ _ (by
    rw [Shape.rowMajor_val_two, Shape.rowMajor_val_four]
    show r.val * 1024 + (128 * hd.val + d.val) = ((u.val * 8192 + r.val) * 8 + hd.val) * 128 + d.val
    have := u.isLt; omega)

/-- The lanes of a reshaped weight vector are the vector's entries. -/
theorem lane_row1 (w : S128.Idx → EReal) (h : S128.ShapeCasts S1x128) :
    laneOf (shapeCast S1x128 w h) = Cert.Rope.lanes1 w :=
  funext fun k => cast_row1 w h k

/-- The lanes of a reshaped table are the table's entries. -/
theorem lane_row4 (c : S1x1x1x128.Idx → EReal) (h : S1x1x1x128.ShapeCasts S1x128) :
    laneOf (shapeCast S1x128 c h) = Cert.Rope.lanes4 c :=
  funext fun k => cast_row4 c h k

variable (m : (ℓ : Loc nD τ sig) → Buf (Elt Ideal) ℓ) (ρ : Dev nD → PrngReg)

/-! ## The rows as the region finds them -/

theorem V_v0 (c : Dev nD) : (V m c main_v0 : S1x128.Idx → EReal)
    = shapeCast S1x128 (m ((c : Thread nD τ).loc main_arg1)) shapeCasts_S128_S1x128 := by
  show StableHlo.after hostOps0 (fun b => m (c, b)) (Proc.devRef .tc main_v0) = _
  after_results; rfl
theorem V_v1 (c : Dev nD) : (V m c main_v1 : S1x128.Idx → EReal)
    = shapeCast S1x128 (m ((c : Thread nD τ).loc main_arg2)) shapeCasts_S128_S1x128 := by
  show StableHlo.after hostOps0 (fun b => m (c, b)) (Proc.devRef .tc main_v1) = _
  after_results; rfl
theorem V_v2 (c : Dev nD) : (V m c main_v2 : S1x128.Idx → EReal)
    = shapeCast S1x128 (m ((c : Thread nD τ).loc main_arg3)) shapeCasts_S1x1x1x128_S1x128 := by
  show StableHlo.after hostOps0 (fun b => m (c, b)) (Proc.devRef .tc main_v2) = _
  after_results; rfl
theorem V_v3 (c : Dev nD) : (V m c main_v3 : S1x128.Idx → EReal)
    = shapeCast S1x128 (m ((c : Thread nD τ).loc main_arg4)) shapeCasts_S1x1x1x128_S1x128 := by
  show StableHlo.after hostOps0 (fun b => m (c, b)) (Proc.devRef .tc main_v3) = _
  after_results; rfl

/-! ## The results -/

/-- The query array in terms of the arguments. -/
theorem arrQ_args (c : Dev nD) :
    arrQ (V m c main_arg0) (V m c main_v2) (V m c main_v3) (V m c main_v0)
      = arrQ (m ((c : Thread nD τ).loc main_arg0))
          (shapeCast S1x128 (m ((c : Thread nD τ).loc main_arg3)) shapeCasts_S1x1x1x128_S1x128)
          (shapeCast S1x128 (m ((c : Thread nD τ).loc main_arg4)) shapeCasts_S1x1x1x128_S1x128)
          (shapeCast S1x128 (m ((c : Thread nD τ).loc main_arg1)) shapeCasts_S128_S1x128) := by
  rw [V_main_arg0, V_v0, V_v2, V_v3]

/-- The key array in terms of the arguments. -/
theorem arrK_args (c : Dev nD) :
    arrK (V m c main_arg0) (V m c main_v2) (V m c main_v3) (V m c main_v1)
      = arrK (m ((c : Thread nD τ).loc main_arg0))
          (shapeCast S1x128 (m ((c : Thread nD τ).loc main_arg3)) shapeCasts_S1x1x1x128_S1x128)
          (shapeCast S1x128 (m ((c : Thread nD τ).loc main_arg4)) shapeCasts_S1x1x1x128_S1x128)
          (shapeCast S1x128 (m ((c : Thread nD τ).loc main_arg2)) shapeCasts_S128_S1x128) := by
  rw [V_main_arg0, V_v1, V_v2, V_v3]

/-- The query array reshaped by heads is the specification's query result. -/
theorem reshaped_q (X : S8192x6144.Idx → EReal) (qw : S128.Idx → EReal) (cos sin : S1x1x1x128.Idx → EReal) :
    shapeCast S1x8192x32x128 (arrQ X (shapeCast S1x128 cos shapeCasts_S1x1x1x128_S1x128)
        (shapeCast S1x128 sin shapeCasts_S1x1x1x128_S1x128) (shapeCast S1x128 qw shapeCasts_S128_S1x128))
      shapeCasts_S8192x4096_S1x8192x32x128 = Cert.Rope.qOut X qw cos sin := by
  funext i
  obtain ⟨u, r, hd, d, rfl⟩ : ∃ (u : Fin 1) (r : Fin 8192) (hd : Fin 32) (d : Fin 128), i = ix4 u r hd d :=
    ⟨i 0, i 1, i 2, i 3, eq_ix4 i⟩
  have hh := hd.isLt
  refine (cast_q _ shapeCasts_S8192x4096_S1x8192x32x128 u r hd d).trans ?_
  rw [arrQ_at X _ _ _ _ r hd.val d (by omega) rfl rfl, lane_row1, lane_row4, lane_row4]
  rfl

/-- The key array reshaped by heads is the specification's key result. -/
theorem reshaped_k (X : S8192x6144.Idx → EReal) (kw : S128.Idx → EReal) (cos sin : S1x1x1x128.Idx → EReal) :
    shapeCast S1x8192x8x128 (arrK X (shapeCast S1x128 cos shapeCasts_S1x1x1x128_S1x128)
        (shapeCast S1x128 sin shapeCasts_S1x1x1x128_S1x128) (shapeCast S1x128 kw shapeCasts_S128_S1x128))
      shapeCasts_S8192x1024_S1x8192x8x128 = Cert.Rope.kOut X kw cos sin := by
  funext i
  obtain ⟨u, r, hd, d, rfl⟩ : ∃ (u : Fin 1) (r : Fin 8192) (hd : Fin 8) (d : Fin 128), i = ix4 u r hd d :=
    ⟨i 0, i 1, i 2, i 3, eq_ix4 i⟩
  have hh := hd.isLt
  refine (cast_k _ shapeCasts_S8192x1024_S1x8192x8x128 u r hd d).trans ?_
  rw [arrK_at X _ _ _ _ r hd.val d (by omega) rfl rfl, lane_row1, lane_row4, lane_row4]
  rfl

/-- The first result after the host's last lines. -/
theorem res_q (c : Dev nD) :
    Pipeline.afterTail₀ cfgs (dats m) 0 (V0 m) [hostOps1] c main_v5
      = Cert.Rope.qOut (m ((c : Thread nD τ).loc main_arg0)) (m ((c : Thread nD τ).loc main_arg1))
          (m ((c : Thread nD τ).loc main_arg3)) (m ((c : Thread nD τ).loc main_arg4)) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4_0)
      = arrQ (m ((c : Thread nD τ).loc main_arg0))
          (shapeCast S1x128 (m ((c : Thread nD τ).loc main_arg3)) shapeCasts_S1x1x1x128_S1x128)
          (shapeCast S1x128 (m ((c : Thread nD τ).loc main_arg4)) shapeCasts_S1x1x1x128_S1x128)
          (shapeCast S1x128 (m ((c : Thread nD τ).loc main_arg1)) shapeCasts_S128_S1x128) :=
    ((Pipeline.withArrays_arr spec0 launch0.win.arr_inj c _ _ 5).trans (finalQ m c)).trans (arrQ_args m c)
  show shapeCast S1x8192x32x128 (Pipeline.withArrays (cfgs 0).spec c (V0 m c)
    (fun w => (dats m 0 c).arrAt w (cfgs 0).N) (Proc.devRef .tc main_v4_0)) shapeCasts_S8192x4096_S1x8192x32x128 = _
  rw [hA]
  exact reshaped_q _ _ _ _

/-- The second result after the host's last lines. -/
theorem res_k (c : Dev nD) :
    Pipeline.afterTail₀ cfgs (dats m) 0 (V0 m) [hostOps1] c main_v6
      = Cert.Rope.kOut (m ((c : Thread nD τ).loc main_arg0)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v4_1)
      = arrK (m ((c : Thread nD τ).loc main_arg0))
          (shapeCast S1x128 (m ((c : Thread nD τ).loc main_arg3)) shapeCasts_S1x1x1x128_S1x128)
          (shapeCast S1x128 (m ((c : Thread nD τ).loc main_arg4)) shapeCasts_S1x1x1x128_S1x128)
          (shapeCast S1x128 (m ((c : Thread nD τ).loc main_arg2)) shapeCasts_S128_S1x128) :=
    ((Pipeline.withArrays_arr spec0 launch0.win.arr_inj c _ _ 6).trans (finalK m c)).trans (arrK_args m c)
  show shapeCast S1x8192x8x128 (Pipeline.withArrays (cfgs 0).spec c (V0 m c)
    (fun w => (dats m 0 c).arrAt w (cfgs 0).N) (Proc.devRef .tc main_v4_1)) shapeCasts_S8192x1024_S1x8192x8x128 = _
  rw [hA]
  exact reshaped_k _ _ _ _

/-- The third result: the value array as the region left it. -/
theorem res_v (c : Dev nD) : (dats m 0 c).arrAt 7 cfg0.N = Cert.Rope.vOut (m ((c : Thread nD τ).loc main_arg0)) := by
  rw [finalV, V_main_arg0]
  rfl

/-! ## The run, read -/

/-- Every weakly fair execution of the kernel's program ends with its three results at the specification's functions
    of the arguments, the arguments unchanged. -/
theorem run : θ_run defs (onTc (τ := τ) (main (F := Ideal))) ⟨m, fun _ => 0, ρ⟩ (fun r => ∀ c : Dev nD,
      r.2.mem ((c.tc : Thread nD τ).loc main_v5)
        = Cert.Rope.qOut (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_v6)
        = Cert.Rope.kOut (m ((c.tc : Thread nD τ).loc main_arg0)) (m ((c.tc : Thread nD τ).loc main_arg2))
            (m ((c.tc : Thread nD τ).loc main_arg3)) (m ((c.tc : Thread nD τ).loc main_arg4))
      ∧ r.2.mem ((c.tc : Thread nD τ).loc main_v4_2) = Cert.Rope.vOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (res_q m c),
      ((h c).2 main_v6 (Pipeline.mem_restRefs_of main_v6 (by decide) (by decide))).trans (res_k m c),
      ((h c).1 7).trans (res_v m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Results

end
-- ==== Proof.RefRope.lean ====
/-
  The reference program computes the rotary embedding of the normalised query heads, and copies the value columns.

  Read one element at a time, the reference's chain of slices, reshapes and broadcasts only moves indices around:
  element (r, h, d) of the reshaped query is column 128 h + d of row r of the fused array; the reciprocal root that is
  broadcast over the lanes is the scale of that head (its sum of squares starts from the zero word, which is the real
  0); the weight and the two tables are read at the lane alone. The concatenation along the lanes is the half rotation:
  its first piece holds the negated upper lanes and its second piece the lower lanes. With each stage read this way the
  result is, lane by lane, the specification's rotary formula.
-/
import proofs.«135246_j76587856822535_1_alg».proof.Proof.Gen.ReferenceIdeal.Read
import proofs.«135246_j76587856822535_1_alg».proof.Proof.RopeSpec
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefRope

open Cert.ReferenceIdeal Cert.ReferenceIdeal.Read Idealize.ShloMosaic Idealize.ShloMosaic.ValueIdx Cert.Rope

/-- The value columns: the slice starting at column 5120 reads the fused array 5120 columns further on. -/
theorem ref_v (x0 : (⟨S8192x6144, .f32⟩ : BufTy).Contents (Elt Ideal)) :
    val_main_v2 (F := Ideal) x0 = vOut x0 := by
  funext i
  rw [val_main_v2_apply]
  unfold vOut
  exact congrArg x0 (funext fun a => Fin.ext (by match a with | ⟨0, _⟩ => rfl | ⟨1, _⟩ => rfl))

/-- The query reshape followed by the column slice: element (r, h, d) is column 128 h + d of row r. -/
theorem v3_at (x0 : (⟨S8192x6144, .f32⟩ : BufTy).Contents (Elt Ideal)) (r : Fin 8192) (h : Fin 32) (d : Fin 128) :
    val_main_v3 (F := Ideal) x0 (ix3 r h d) = headRow x0 r (128 * h.val) (by have := h.isLt; omega) d := by
  rw [val_main_v3_apply, val_main_v0_apply]
  unfold headRow
  refine congrArg x0 (funext fun a => Fin.ext ?_)
  have hr := r.isLt; have hh := h.isLt; have hd := d.isLt
  match a with
  | ⟨0, _⟩ => show ((r.val * 32 + h.val) * 128 + d.val) / 4096 = r.val; omega
  | ⟨1, _⟩ => show ((r.val * 32 + h.val) * 128 + d.val) % 4096 = 128 * h.val + d.val; omega

/-- The broadcast reciprocal root at (r, h, d) does not depend on the lane: it is the scale of head h of row r.
    The host sum starts from the zero word, which is the real 0, so it is the bare sum of squares. -/
theorem v12_at (x0 : (⟨S8192x6144, .f32⟩ : BufTy).Contents (Elt Ideal)) (r : Fin 8192) (h : Fin 32) (d : Fin 128) :
    val_main_v12 (F := Ideal) x0 (ix3 r h d) = scale (headRow x0 r (128 * h.val) (by have := h.isLt; omega)) := by
  rw [val_main_v12_apply, val_main_v11_apply, val_main_v10_apply, val_main_v8_apply, val_main_v9_apply,
    val_main_cst_1_apply, val_main_v7_apply, val_main_cst_0_apply, val_main_v6_apply, val_main_v5_apply,
    val_main_cst_apply]
  simp only [Ideal.hostUnary_rsqrt_def, Ideal.addf_def, Ideal.hostDivf_def, Ideal.ofBits_def, Ideal.ofBits_zero_f32, zero_add]
  unfold scale
  have hs : ∀ k : Fin 128, val_main_v4 (F := Ideal) x0 (idx_main_v5 (idx_main_v6 (idx_main_v12 (ix3 r h d))) k)
      = headRow x0 r (128 * h.val) (by have := h.isLt; omega) k * headRow x0 r (128 * h.val) (by have := h.isLt; omega) k := by
    intro k
    have e : idx_main_v5 (idx_main_v6 (idx_main_v12 (ix3 r h d))) k = ix3 r h k :=
      funext fun a => Fin.ext (by match a with | ⟨0, _⟩ => rfl | ⟨1, _⟩ => rfl | ⟨2, _⟩ => rfl)
    rw [e, val_main_v4_apply, Ideal.mulf_def, v3_at]
  simp only [hs]

/-- The normalised, weighted query after the reshape to four axes: element (0, r, h, d) is lane d of the normalised
    head h of row r. The leading axis has one entry, so the flat position divides back into (r, h, d). -/
theorem v17_at (x0 : (⟨S8192x6144, .f32⟩ : BufTy).Contents (Elt Ideal)) (x1 : (⟨S128, .f32⟩ : BufTy).Contents (Elt Ideal))
    (z : Fin 1) (r : Fin 8192) (h : Fin 32) (d : Fin 128) :
    val_main_v17 (F := Ideal) x0 x1 (ix4 z r h d)
      = normed (headRow x0 r (128 * h.val) (by have := h.isLt; omega)) (lanes1 x1) d := by
  have e : idx_main_v17 (ix4 z r h d) = ix3 r h d := by
    funext a; refine Fin.ext ?_
    have hz := z.isLt; have hr := r.isLt; have hh := h.isLt; have hd := d.isLt
    match a with
    | ⟨0, _⟩ => show (((z.val * 8192 + r.val) * 32 + h.val) * 128 + d.val) / 4096 = r.val; omega
    | ⟨1, _⟩ => show (((z.val * 8192 + r.val) * 32 + h.val) * 128 + d.val) / 128 % 32 = h.val; omega
    | ⟨2, _⟩ => show (((z.val * 8192 + r.val) * 32 + h.val) * 128 + d.val) % 128 = d.val; omega
  have e2 : idx_main_v14 (idx_main_v15 (ix3 r h d)) = ix1 d :=
    funext fun a => Fin.ext (by match a with | ⟨0, _⟩ => rfl)
  rw [val_main_v17_apply, e, val_main_v16_apply, val_main_v13_apply, val_main_v15_apply, val_main_v14_apply, e2,
    v3_at, v12_at]
  simp only [Ideal.mulf_def]
  rfl

/-- The concatenation of the negated upper half and the lower half along the lanes is the half rotation of the
    normalised head: a lane below 64 falls in the first piece and reads minus the lane 64 further on, a lane from 64
    on falls in the second piece and reads the lane 64 before. -/
theorem v38_at (x0 : (⟨S8192x6144, .f32⟩ : BufTy).Contents (Elt Ideal)) (x1 : (⟨S128, .f32⟩ : BufTy).Contents (Elt Ideal))
    (z : Fin 1) (r : Fin 8192) (h : Fin 32) (d : Fin 128) :
    val_main_v38 (F := Ideal) x0 x1 (ix4 z r h d)
      = rot (normed (headRow x0 r (128 * h.val) (by have := h.isLt; omega)) (lanes1 x1)) d := by
  unfold val_main_v38 rot
  by_cases hd : d.val < 64
  · rw [dif_pos hd]
    rw [concatenate_pair_apply_left (t := S1x8192x32x128) (s₁ := S1x8192x32x64) (s₂ := S1x8192x32x64) _ _ _ _ (ix4 z r h d) rfl (ix4 z r h (⟨d.val, hd⟩ : Fin 64))
      (fun b => by match b with | ⟨0, _⟩ => rfl | ⟨1, _⟩ => rfl | ⟨2, _⟩ => rfl | ⟨3, _⟩ => rfl)]
    have e : idx_main_v36 (ix4 z r h (⟨d.val, hd⟩ : Fin 64)) = ix4 z r h (⟨d.val + 64, by omega⟩ : Fin 128) := by
      funext a; refine Fin.ext ?_
      match a with
      | ⟨0, _⟩ => rfl
      | ⟨1, _⟩ => rfl
      | ⟨2, _⟩ => rfl
      | ⟨3, _⟩ => show 64 + d.val = d.val + 64; omega
    rw [val_main_v37_apply, val_main_v36_apply, e, v17_at, Ideal.hostNegf_def, Ideal.negf_def]
  · rw [dif_neg hd]
    have hd' : d.val - 64 < 64 := by have := d.isLt; omega
    rw [concatenate_pair_apply_right (t := S1x8192x32x128) (s₁ := S1x8192x32x64) (s₂ := S1x8192x32x64) _ _ _ _ (ix4 z r h d) rfl rfl (ix4 z r h (⟨d.val - 64, hd'⟩ : Fin 64))
      (fun b hb => by
        match b with
        | ⟨0, _⟩ => rfl
        | ⟨1, _⟩ => rfl
        | ⟨2, _⟩ => rfl
        | ⟨3, _⟩ => exact (hb (Fin.ext rfl)).elim)
      (by show d.val - 64 + 64 = d.val; omega)]
    have e : idx_main_v35 (ix4 z r h (⟨d.val - 64, hd'⟩ : Fin 64)) = ix4 z r h (⟨d.val - 64, by omega⟩ : Fin 128) :=
      funext fun a => Fin.ext (by match a with | ⟨0, _⟩ => rfl | ⟨1, _⟩ => rfl | ⟨2, _⟩ => rfl | ⟨3, _⟩ => rfl)
    rw [val_main_v35_apply, e, v17_at]

/-- The query result: the normalised head times the cosine table plus its half rotation times the sine table. -/
theorem ref_q (x0 : (⟨S8192x6144, .f32⟩ : BufTy).Contents (Elt Ideal)) (x1 : (⟨S128, .f32⟩ : BufTy).Contents (Elt Ideal))
    (x3 x4 : (⟨S1x1x1x128, .f32⟩ : BufTy).Contents (Elt Ideal)) :
    val_main_v41 (F := Ideal) x0 x1 x3 x4 = qOut x0 x1 x3 x4 := by
  funext i
  obtain ⟨z, r, h, d, rfl⟩ : ∃ (z : Fin 1) (r : Fin 8192) (h : Fin 32) (d : Fin 128), i = ix4 z r h d :=
    ⟨i 0, i 1, i 2, i 3, eq_ix4 i⟩
  have e3 : idx_main_v33 (ix4 z r h d) = ix4 (0 : Fin 1) (0 : Fin 1) (0 : Fin 1) d :=
    funext fun a => Fin.ext (by match a with | ⟨0, _⟩ => rfl | ⟨1, _⟩ => rfl | ⟨2, _⟩ => rfl | ⟨3, _⟩ => rfl)
  have e4 : idx_main_v39 (ix4 z r h d) = ix4 (0 : Fin 1) (0 : Fin 1) (0 : Fin 1) d :=
    funext fun a => Fin.ext (by match a with | ⟨0, _⟩ => rfl | ⟨1, _⟩ => rfl | ⟨2, _⟩ => rfl | ⟨3, _⟩ => rfl)
  rw [val_main_v41_apply, val_main_v34_apply, val_main_v40_apply, v17_at, v38_at, val_main_v33_apply,
    val_main_v39_apply, e3, e4]
  simp only [Ideal.addf_def, Ideal.mulf_def]
  rfl

end Cert.RefRope

end
-- ==== Proof.RefRopeK.lean ====
/-
  The reference program computes the rotary embedding of the normalised key heads.

  The key columns are the 1024 columns that follow the 4096 query columns, in 8 heads of 128 lanes: element (r, h, d) of
  the reshaped key is column 4096 + 128 h + d of row r of the fused array. From there the reading is the query's: the
  broadcast reciprocal root is the scale of that head (its sum of squares starts from the zero word, the real 0), the
  weight and the two tables are read at the lane alone, and the concatenation of the negated upper lanes and the lower
  lanes is the half rotation. Lane by lane the result is the specification's rotary formula.
-/
import proofs.«135246_j76587856822535_1_alg».proof.Proof.Gen.ReferenceIdeal.Read
import proofs.«135246_j76587856822535_1_alg».proof.Proof.RopeSpec
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefRope

open Cert.ReferenceIdeal Cert.ReferenceIdeal.Read Idealize.ShloMosaic Idealize.ShloMosaic.ValueIdx Cert.Rope

/-- The key reshape followed by the column slice: element (r, h, d) is column 4096 + 128 h + d of row r. -/
theorem v18_at (x0 : (⟨S8192x6144, .f32⟩ : BufTy).Contents (Elt Ideal)) (r : Fin 8192) (h : Fin 8) (d : Fin 128) :
    val_main_v18 (F := Ideal) x0 (ix3 r h d) = headRow x0 r (4096 + 128 * h.val) (by have := h.isLt; omega) d := by
  rw [val_main_v18_apply, val_main_v1_apply]
  unfold headRow
  refine congrArg x0 (funext fun a => Fin.ext ?_)
  have hr := r.isLt; have hh := h.isLt; have hd := d.isLt
  match a with
  | ⟨0, _⟩ => show ((r.val * 8 + h.val) * 128 + d.val) / 1024 = r.val; omega
  | ⟨1, _⟩ => show 4096 + ((r.val * 8 + h.val) * 128 + d.val) % 1024 = 4096 + 128 * h.val + d.val; omega

/-- The broadcast reciprocal root at (r, h, d) does not depend on the lane: it is the scale of key head h of row r.
    The host sum starts from the zero word, which is the real 0, so it is the bare sum of squares. -/
theorem v27_at (x0 : (⟨S8192x6144, .f32⟩ : BufTy).Contents (Elt Ideal)) (r : Fin 8192) (h : Fin 8) (d : Fin 128) :
    val_main_v27 (F := Ideal) x0 (ix3 r h d)
      = scale (headRow x0 r (4096 + 128 * h.val) (by have := h.isLt; omega)) := by
  rw [val_main_v27_apply, val_main_v26_apply, val_main_v25_apply, val_main_v23_apply, val_main_v24_apply,
    val_main_cst_4_apply, val_main_v22_apply, val_main_cst_3_apply, val_main_v21_apply, val_main_v20_apply,
    val_main_cst_2_apply]
  simp only [Ideal.hostUnary_rsqrt_def, Ideal.addf_def, Ideal.hostDivf_def, Ideal.ofBits_def, Ideal.ofBits_zero_f32, zero_add]
  unfold scale
  have hs : ∀ k : Fin 128, val_main_v19 (F := Ideal) x0 (idx_main_v20 (idx_main_v21 (idx_main_v27 (ix3 r h d))) k)
      = headRow x0 r (4096 + 128 * h.val) (by have := h.isLt; omega) k
        * headRow x0 r (4096 + 128 * h.val) (by have := h.isLt; omega) k := by
    intro k
    have e : idx_main_v20 (idx_main_v21 (idx_main_v27 (ix3 r h d))) k = ix3 r h k :=
      funext fun a => Fin.ext (by match a with | ⟨0, _⟩ => rfl | ⟨1, _⟩ => rfl | ⟨2, _⟩ => rfl)
    rw [e, val_main_v19_apply, Ideal.mulf_def, v18_at]
  simp only [hs]

/-- The normalised, weighted key after the reshape to four axes: element (0, r, h, d) is lane d of the normalised
    key head h of row r. The leading axis has one entry, so the flat position divides back into (r, h, d). -/
theorem v32_at (x0 : (⟨S8192x6144, .f32⟩ : BufTy).Contents (Elt Ideal)) (x2 : (⟨S128, .f32⟩ : BufTy).Contents (Elt Ideal))
    (z : Fin 1) (r : Fin 8192) (h : Fin 8) (d : Fin 128) :
    val_main_v32 (F := Ideal) x0 x2 (ix4 z r h d)
      = normed (headRow x0 r (4096 + 128 * h.val) (by have := h.isLt; omega)) (lanes1 x2) d := by
  have e : idx_main_v32 (ix4 z r h d) = ix3 r h d := by
    funext a; refine Fin.ext ?_
    have hz := z.isLt; have hr := r.isLt; have hh := h.isLt; have hd := d.isLt
    match a with
    | ⟨0, _⟩ => show (((z.val * 8192 + r.val) * 8 + h.val) * 128 + d.val) / 1024 = r.val; omega
    | ⟨1, _⟩ => show (((z.val * 8192 + r.val) * 8 + h.val) * 128 + d.val) / 128 % 8 = h.val; omega
    | ⟨2, _⟩ => show (((z.val * 8192 + r.val) * 8 + h.val) * 128 + d.val) % 128 = d.val; omega
  have e2 : idx_main_v29 (idx_main_v30 (ix3 r h d)) = ix1 d :=
    funext fun a => Fin.ext (by match a with | ⟨0, _⟩ => rfl)
  rw [val_main_v32_apply, e, val_main_v31_apply, val_main_v28_apply, val_main_v30_apply, val_main_v29_apply, e2,
    v18_at, v27_at]
  simp only [Ideal.mulf_def]
  rfl

/-- The concatenation of the negated upper half and the lower half along the lanes is the half rotation of the
    normalised key head: a lane below 64 falls in the first piece and reads minus the lane 64 further on, a lane from
    64 on falls in the second piece and reads the lane 64 before. -/
theorem v47_at (x0 : (⟨S8192x6144, .f32⟩ : BufTy).Contents (Elt Ideal)) (x2 : (⟨S128, .f32⟩ : BufTy).Contents (Elt Ideal))
    (z : Fin 1) (r : Fin 8192) (h : Fin 8) (d : Fin 128) :
    val_main_v47 (F := Ideal) x0 x2 (ix4 z r h d)
      = rot (normed (headRow x0 r (4096 + 128 * h.val) (by have := h.isLt; omega)) (lanes1 x2)) d := by
  unfold val_main_v47 rot
  by_cases hd : d.val < 64
  · rw [dif_pos hd]
    rw [concatenate_pair_apply_left (t := S1x8192x8x128) (s₁ := S1x8192x8x64) (s₂ := S1x8192x8x64) _ _ _ _ (ix4 z r h d) rfl
      (ix4 z r h (⟨d.val, hd⟩ : Fin 64))
      (fun b => by match b with | ⟨0, _⟩ => rfl | ⟨1, _⟩ => rfl | ⟨2, _⟩ => rfl | ⟨3, _⟩ => rfl)]
    have e : idx_main_v45 (ix4 z r h (⟨d.val, hd⟩ : Fin 64)) = ix4 z r h (⟨d.val + 64, by omega⟩ : Fin 128) := by
      funext a; refine Fin.ext ?_
      match a with
      | ⟨0, _⟩ => rfl
      | ⟨1, _⟩ => rfl
      | ⟨2, _⟩ => rfl
      | ⟨3, _⟩ => show 64 + d.val = d.val + 64; omega
    rw [val_main_v46_apply, val_main_v45_apply, e, v32_at, Ideal.hostNegf_def, Ideal.negf_def]
  · rw [dif_neg hd]
    have hd' : d.val - 64 < 64 := by have := d.isLt; omega
    rw [concatenate_pair_apply_right (t := S1x8192x8x128) (s₁ := S1x8192x8x64) (s₂ := S1x8192x8x64) _ _ _ _ (ix4 z r h d) rfl rfl
      (ix4 z r h (⟨d.val - 64, hd'⟩ : Fin 64))
      (fun b hb => by
        match b with
        | ⟨0, _⟩ => rfl
        | ⟨1, _⟩ => rfl
        | ⟨2, _⟩ => rfl
        | ⟨3, _⟩ => exact (hb (Fin.ext rfl)).elim)
      (by show d.val - 64 + 64 = d.val; omega)]
    have e : idx_main_v44 (ix4 z r h (⟨d.val - 64, hd'⟩ : Fin 64)) = ix4 z r h (⟨d.val - 64, by omega⟩ : Fin 128) :=
      funext fun a => Fin.ext (by match a with | ⟨0, _⟩ => rfl | ⟨1, _⟩ => rfl | ⟨2, _⟩ => rfl | ⟨3, _⟩ => rfl)
    rw [val_main_v44_apply, e, v32_at]

/-- The key result: the normalised key head times the cosine table plus its half rotation times the sine table. -/
theorem ref_k (x0 : (⟨S8192x6144, .f32⟩ : BufTy).Contents (Elt Ideal)) (x2 : (⟨S128, .f32⟩ : BufTy).Contents (Elt Ideal))
    (x3 x4 : (⟨S1x1x1x128, .f32⟩ : BufTy).Contents (Elt Ideal)) :
    val_main_v50 (F := Ideal) x0 x2 x3 x4 = kOut x0 x2 x3 x4 := by
  funext i
  obtain ⟨z, r, h, d, rfl⟩ : ∃ (z : Fin 1) (r : Fin 8192) (h : Fin 8) (d : Fin 128), i = ix4 z r h d :=
    ⟨i 0, i 1, i 2, i 3, eq_ix4 i⟩
  have e3 : idx_main_v42 (ix4 z r h d) = ix4 (0 : Fin 1) (0 : Fin 1) (0 : Fin 1) d :=
    funext fun a => Fin.ext (by match a with | ⟨0, _⟩ => rfl | ⟨1, _⟩ => rfl | ⟨2, _⟩ => rfl | ⟨3, _⟩ => rfl)
  have e4 : idx_main_v48 (ix4 z r h d) = ix4 (0 : Fin 1) (0 : Fin 1) (0 : Fin 1) d :=
    funext fun a => Fin.ext (by match a with | ⟨0, _⟩ => rfl | ⟨1, _⟩ => rfl | ⟨2, _⟩ => rfl | ⟨3, _⟩ => rfl)
  rw [val_main_v50_apply, val_main_v43_apply, val_main_v49_apply, v32_at, v47_at, val_main_v42_apply,
    val_main_v48_apply, e3, e4]
  simp only [Ideal.addf_def, Ideal.mulf_def]
  rfl

end Cert.RefRope

end
-- ==== Proof.lean ====
/-
  Fused query/key normalisation with rotary embedding, against its plain array-program reference.

  Both programs take a fused array `[8192, 6144]`, two weight vectors `[128]` and a cosine and a sine table
  `[1, 1, 1, 128]`. A row of the fused array is 32 query heads, 8 key heads and 1024 value columns. For each query
  and key head `X` (128 numbers) both compute, on the extended reals,

      n_k = X_k · (Σ_j X_j² / 128 + ε)^(-1/2) · w_k,      out_d = n_d · cos_d + r_d · sin_d,

  where `r_d = −n_{d+64}` for `d < 64` and `r_d = n_{d−64}` otherwise; the value columns are copied. The kernel walks the
  rows in 16 blocks of 512 and, inside a block, the heads one 128-column strip after another; the reference works on
  whole arrays reshaped by heads. The two agree term by term: the same sum of squares, the same two float words (128
  and ε), the same reciprocal root, and `0 − x = −x` where the kernel subtracts from zero and the reference negates.
  No law used needs the inputs to be finite, so the precondition is never opened.

  The modules: `RopeSpec` states the formula above; `HeadFn` reads one head of the kernel body at an index;
  `Payloads` identifies each of the body's 40 stores with that head function; `BlockFn` makes each output block one
  function of the input block; `Arrays` passes from blocks to whole arrays; `Results` adds the host's reshapes before
  and after the region and states the kernel's run; `RefRope` and `RefRopeK` read the reference's run at an index.
  Here the five claims are assembled. The ideal pass rewrote nothing, so `preserves` is the true proposition.
-/
import proofs.«135246_j76587856822535_1_alg».proof.Defs
import proofs.«135246_j76587856822535_1_alg».proof.Proof.Gen.Kernel
import proofs.«135246_j76587856822535_1_alg».proof.Proof.Gen.Kernel.Skeleton
import proofs.«135246_j76587856822535_1_alg».proof.Proof.Gen.Kernel.Launch
import proofs.«135246_j76587856822535_1_alg».proof.Proof.Gen.Kernel.Points
import proofs.«135246_j76587856822535_1_alg».proof.Proof.Gen.Kernel.Frame
import proofs.«135246_j76587856822535_1_alg».proof.Proof.Gen.KernelIdeal
import proofs.«135246_j76587856822535_1_alg».proof.Proof.Gen.KernelIdeal.Skeleton
import proofs.«135246_j76587856822535_1_alg».proof.Proof.Gen.KernelIdeal.Launch
import proofs.«135246_j76587856822535_1_alg».proof.Proof.Gen.KernelIdeal.Points
import proofs.«135246_j76587856822535_1_alg».proof.Proof.Gen.KernelIdeal.Frame
import proofs.«135246_j76587856822535_1_alg».proof.Proof.Gen.ReferenceIdeal
import proofs.«135246_j76587856822535_1_alg».proof.Proof.Gen.ReferenceIdeal.Run
import proofs.«135246_j76587856822535_1_alg».proof.Proof.Gen.ReferenceIdeal.Read
import proofs.«135246_j76587856822535_1_alg».proof.Proof.Gen.Pre_finite_inputs
import proofs.«135246_j76587856822535_1_alg».proof.Proof.Results
import proofs.«135246_j76587856822535_1_alg».proof.Proof.RefRope
import proofs.«135246_j76587856822535_1_alg».proof.Proof.RefRopeK
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a line of host operations: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- On the extended reals the kernel's three results and the reference's are the same functions of arguments that
    agree: the specification's query, key and value arrays. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v41_eq, Cert.RefRope.ref_q, (hagree c).1, (hagree c).2.1,
      (hagree c).2.2.2.1, (hagree c).2.2.2.2]
  · rw [Cert.ReferenceIdeal.Read.val_main_v50_eq, Cert.RefRope.ref_k, (hagree c).1, (hagree c).2.2.1,
      (hagree c).2.2.2.1, (hagree c).2.2.2.2]
  · rw [Cert.ReferenceIdeal.Read.val_main_v2_eq, Cert.RefRope.ref_v, (hagree c).1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
